-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S64x128 : Shape := ⟨2, ![64, 128]⟩
abbrev S384x64 : Shape := ⟨2, ![384, 64]⟩
abbrev S64x1 : Shape := ⟨2, ![64, 1]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  main_v18

def fn {F : FTy → Type} [FloatOps F] (main_arg0 : FVec F S64x4096x256 .f32) (main_arg1 : FVec F S64x128 .f32) (main_arg2 : FVec F S384x64 .f32) (main_arg3 : FVec F S64x1 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S384x64 .f32 := Host.absf main_arg2
  let main_cst_2 : FVec F S_ .f32 := constant S_ .f32 0x7F800000#32
  let main_v10 : FVec F S384x64 .f32 := broadcastInDim S384x64 ![] bcast_S_S384x64 main_cst_2
  let main_v11 : IVec S384x64 1 := cmpf .olt main_v9 main_v10
  let main_c_3 : IVec S_ 1 := constantI S_ 1 1#1
  let main_v12 : IVec S_ 1 := (fun x v => Host.reduce IntOp.andi x v reducesTo_S384x64_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_v13 main_v16
-- ==== Kernel.lean ====
abbrev S64x4096x256 : Shape := ⟨3, ![64, 4096, 256]⟩
abbrev S64x128 : Shape := ⟨2, ![64, 128]⟩
abbrev S384x64 : Shape := ⟨2, ![384, 64]⟩
abbrev S64x1 : Shape := ⟨2, ![64, 1]⟩
abbrev S64x256 : Shape := ⟨2, ![64, 256]⟩
abbrev S32x256x256 : Shape := ⟨3, ![32, 256, 256]⟩
abbrev S32x128 : Shape := ⟨2, ![32, 128]⟩
abbrev S32x256 : Shape := ⟨2, ![32, 256]⟩
abbrev S32x1 : Shape := ⟨2, ![32, 1]⟩
abbrev S32x64 : Shape := ⟨2, ![32, 64]⟩
abbrev S128x64 : Shape := ⟨2, ![128, 64]⟩
abbrev S256x64 : Shape := ⟨2, ![256, 64]⟩
abbrev S8192x256 : Shape := ⟨2, ![8192, 256]⟩
abbrev S8192x64 : Shape := ⟨2, ![8192, 64]⟩
abbrev S32x256x64 : Shape := ⟨3, ![32, 256, 64]⟩
abbrev S32x1x64 : Shape := ⟨3, ![32, 1, 64]⟩
abbrev S64 : Shape := ⟨1, ![64]⟩
abbrev S1x1x64 : Shape := ⟨3, ![1, 1, 64]⟩
abbrev S32 : Shape := ⟨1, ![32]⟩
abbrev S32x1x256 : Shape := ⟨3, ![32, 1, 256]⟩

abbrev nBuf : Space → Nat
  | .hbm => 5
  | .vmem => 12
  | .smem => 0
  | _ => 0

abbrev bufTy : (tb : Table) → Fin (tcTables nBuf tb) → BufTy
  | .hbm, ⟨0, _⟩ => ⟨S64x4096x256, .f32⟩
  | .hbm, ⟨1, _⟩ => ⟨S64x128, .f32⟩
  | .hbm, ⟨2, _⟩ => ⟨S384x64, .f32⟩
  | .hbm, ⟨3, _⟩ => ⟨S64x1, .f32⟩
  | .hbm, ⟨4, _⟩ => ⟨S64x256, .f32⟩
  | .local _ .vmem, ⟨0, _⟩ => ⟨S32x256x256, .f32⟩
  | .local _ .vmem, ⟨1, _⟩ => ⟨S32x256x256, .f32⟩
  | .local _ .vmem, ⟨2, _⟩ => ⟨S32x128, .f32⟩
  | .local _ .vmem, ⟨3, _⟩ => ⟨S32x128, .f32⟩
  | .local _ .vmem, ⟨4, _⟩ => ⟨S384x64, .f32⟩
  | .local _ .vmem, ⟨5, _⟩ => ⟨S64x1, .f32⟩
  | .local _ .vmem, ⟨6, _⟩ => ⟨S32x256, .f32⟩
  | .local _ .vmem, ⟨7, _⟩ => ⟨S32x256, .f32⟩
  | .local _ .vmem, ⟨8, _⟩ => ⟨S32x1, .f32⟩
  | .local _ .vmem, ⟨9, _⟩ => ⟨S32x1, .f32⟩
  | .local _ .vmem, ⟨10, _⟩ => ⟨S32x256, .f32⟩
  | .local _ .vmem, ⟨11, _⟩ => ⟨S32x64, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v53 : BitVec 1 := Scalar.cmpi .eq arg1 c15_i32
  let v54 : BitVec 32 := Scalar.extui v53
  let c0_i32_25 : BitVec 32 := 0#32
  let v55 : BitVec 1 := Scalar.cmpi .ne v54 c0_i32_25
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S384x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x128_S32x128_0_0 : ∀ a, (![0, 0] : Fin 2 → Nat) a + S32x128.size a ≤ S32x128.size a
  h_S32x128 : 0 < S32x128.numel
  inb_S384x64_S384x64_0_0 : ∀ a, (![0, 0] : Fin 2 → Nat) a + S384x64.size a ≤ S384x64.size a
  h_S384x64 : 0 < S384x64.numel
  slices_S384x64_o256_0_S128x64 : S384x64.Slices ![256, 0] S128x64
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x256x256_S32x256x256_0_0_0 : ∀ a, (![0, 0, 0] : Fin 3 → Nat) a + S32x256x256.size a ≤ S32x256x256.size a
  h_S32x256x256 : 0 < S32x256x256.numel
  inb_S64x1_S64x1_0_0 : ∀ a, (![0, 0] : Fin 2 → Nat) a + S64x1.size a ≤ S64x1.size a
  h_S64x1 : 0 < S64x1.numel
  slices_S384x64_o0_0_S256x64 : S384x64.Slices ![0, 0] S256x64
  shapeCasts_S32x256x256_S8192x256 : S32x256x256.ShapeCasts S8192x256
  shapeCasts_S8192x64_S32x256x64 : S8192x64.ShapeCasts S32x256x64
  shapeCasts_S32x64_S32x1x64 : S32x64.ShapeCasts S32x1x64
  broadcasts_S32x1x64_S32x256x64 : S32x1x64.Broadcasts S32x256x64
  shapeCasts_S64x1_S64 : S64x1.ShapeCasts S64
  shapeCasts_S64_S1x1x64 : S64.ShapeCasts S1x1x64
  broadcasts_S1x1x64_S32x256x64 : S1x1x64.Broadcasts S32x256x64
  reduces_S32x256x64_S32x256 : S32x256x64.Reduces [2] S32x256
  reduces_S32x256_S32 : S32x256.Reduces [1] S32
  shapeCasts_S32_S32x1 : S32.ShapeCasts S32x1
  broadcasts_S32x1_S32x256 : S32x1.Broadcasts S32x256
  shapeCasts_S32x256_S32x1x256 : S32x256.ShapeCasts S32x1x256
  shapeCasts_S32x1x256_S32x256 : S32x1x256.ShapeCasts S32x256
  dot_S32x128_S128x64_S32x64_1_0_0_1_n_n_wf : DotDims.WF S32x128 S128x64 S32x64 [1] [0] [0] [1] [] []
  dot_S8192x256_S256x64_S8192x64_1_0_0_1_n_n_wf : DotDims.WF S8192x256 S256x64 S8192x64 [1] [0] [0] [1] [] []
  dot_S32x1x256_S32x256x256_S32x1x256_2_1_1_2_0_0_wf : DotDims.WF S32x1x256 S32x256x256 S32x1x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S64x4096x256.size a
  hwx0_0 : ∀ i : grid0.Coords, EltTy.bits .f32 = 32 ∨ (Rect.block (s := S64x4096x256) S32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S64x128.size a
  hwx0_1 : ∀ i : grid0.Coords, EltTy.bits .f32 = 32 ∨ (Rect.block (s := S64x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x64.size a ≤ S384x64.size a
  hwx0_2 : ∀ i : grid0.Coords, EltTy.bits .f32 = 32 ∨ (Rect.block (s := S384x64) S384x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S64x256.size a
  hwx0_4 : ∀ i : grid0.Coords, EltTy.bits .f32 = 32 ∨ (Rect.block (s := S64x256) S32x256.size (cc0_transform_4 i) (hinb0_4 i)).WholeWords (EltTy.packing .f32)

variable [Facts₀]

def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S32x1x256_S32x256x256_S32x1x256_2_1_1_2_0_0 : DotDims S32x1x256 S32x256x256 S32x1x256 where
  lhsContracting := [2]
  rhsContracting := [1]
  lhsNonContracting := [1]
  rhsNonContracting := [2]
  lhsBatch := [0]
  rhsBatch := [0]
  wf := dot_S32x1x256_S32x256x256_S32x1x256_2_1_1_2_0_0_wf

abbrev win0_0 : Pipeline.Window sig grid0 :=
  Pipeline.Window.ofSpec (Memref.whole main_arg0) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x4096x256 : Shape := ⟨3, ![64, 4096, 256]⟩
abbrev S64x128 : Shape := ⟨2, ![64, 128]⟩
abbrev S384x64 : Shape := ⟨2, ![384, 64]⟩
abbrev S64x1 : Shape := ⟨2, ![64, 1]⟩
abbrev S256x64 : Shape := ⟨2, ![256, 64]⟩
abbrev S128x64 : Shape := ⟨2, ![128, 64]⟩
abbrev S64x4096x64 : Shape := ⟨3, ![64, 4096, 64]⟩
abbrev S64x64 : Shape := ⟨2, ![64, 64]⟩
abbrev S64x1x64 : Shape := ⟨3, ![64, 1, 64]⟩
abbrev S64x4096x1 : Shape := ⟨3, ![64, 4096, 1]⟩
abbrev S_ : Shape := ⟨0, ![]⟩
abbrev S64x1x1 : Shape := ⟨3, ![64, 1, 1]⟩
abbrev S64x256 : Shape := ⟨2, ![64, 256]⟩

abbrev nBuf : Space → Nat
  | .hbm => 31
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S64x128, .f32⟩
  | .hbm, ⟨2, _⟩ => ⟨S384x64, .f32⟩
  | .hbm, ⟨3, _⟩ => ⟨S64x1, .f32⟩
  | .hbm, ⟨4, _⟩ => ⟨S256x64, .f32⟩
  | .hbm, ⟨5, _⟩ => ⟨S128x64, .f32⟩
  | .hbm, ⟨6, _⟩ => ⟨S64x4096x64, .f32⟩
  | .hbm, ⟨7, _⟩ => ⟨S64x64, .f32⟩
  | .hbm, ⟨8, _⟩ => ⟨S64x1x64, .f32⟩
  | .hbm, ⟨9, _⟩ => ⟨S64x4096x64, .f32⟩
  | .hbm, ⟨10, _⟩ => ⟨S64x4096x64, .f32⟩
  | .hbm, ⟨11, _⟩ => ⟨S64x4096x64, .f32⟩
  | .hbm, ⟨12, _⟩ => ⟨S64x4096x1, .f32⟩
  | .hbm, ⟨13, _⟩ => ⟨S_, .f32⟩
  | .hbm, ⟨14, _⟩ => ⟨S64x1, .f32⟩
  | .hbm, ⟨15, _⟩ => ⟨S_, .f32⟩
  | .hbm, ⟨16, _⟩ => ⟨S64x1, .f32⟩
  | .hbm, ⟨17, _⟩ => ⟨S64x1, .f32⟩
  | .hbm, ⟨18, _⟩ => ⟨S64x1x1, .f32⟩
  | .hbm, ⟨19, _⟩ => ⟨S64x4096x1, .f32⟩
  | .hbm, ⟨20, _⟩ => ⟨S64x4096x1, .f32⟩
  | .hbm, ⟨21, _⟩ => ⟨S64x4096x1, .f32⟩
  | .hbm, ⟨22, _⟩ => ⟨S_, .f32⟩
  | .hbm, ⟨23, _⟩ => ⟨S64x1, .f32⟩
  | .hbm, ⟨24, _⟩ => ⟨S64x1x1, .f32⟩
  | .hbm, ⟨25, _⟩ => ⟨S64x4096x1, .f32⟩
  | .hbm, ⟨26, _⟩ => ⟨S64x4096x1, .f32⟩
  | .hbm, ⟨27, _⟩ => ⟨S64x4096x256, .f32⟩
  | .hbm, ⟨28, _⟩ => ⟨S64x4096x256, .f32⟩
  | .hbm, ⟨29, _⟩ => ⟨S_, .f32⟩
  | .hbm, ⟨30, _⟩ => ⟨S64x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  slices_S384x64_S256x64_0_0 : S384x64.Slices ![0, 0] S256x64
  slices_S384x64_S128x64_256_0 : S384x64.Slices ![256, 0] S128x64
  bcast_S64x64_S64x1x64_0_2 : S64x64.BroadcastsInDim S64x1x64 (![0, 2] : Fin 2 → Fin S64x1x64.rank)
  bcast_S64x1x64_S64x4096x64_0_1_2 : S64x1x64.BroadcastsInDim S64x4096x64 (![0, 1, 2] : Fin 3 → Fin S64x4096x64.rank)
  reducesTo_S64x4096x1_S64x1_d1 : S64x4096x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x4096x1_0_1_2 : S64x1x1.BroadcastsInDim S64x4096x1 (![0, 1, 2] : Fin 3 → Fin S64x4096x1.rank)
  bcast_S64x4096x1_S64x4096x256_0_1_2 : S64x4096x1.BroadcastsInDim S64x4096x256 (![0, 1, 2] : Fin 3 → Fin S64x4096x256.rank)
  reducesTo_S64x4096x256_S64x256_d1 : S64x4096x256.ReducesTo [1] S64x256
  dot_S64x4096x256_S256x64_S64x4096x64_2_0_01_1_n_n_wf : DotDims.WF S64x4096x256 S256x64 S64x4096x64 [2] [0] [0, 1] [1] [] []
  dot_S64x128_S128x64_S64x64_1_0_0_1_n_n_wf : DotDims.WF S64x128 S128x64 S64x64 [1] [0] [0] [1] [] []
  dot_S64x4096x64_S64x1_S64x4096x1_2_0_01_1_n_n_wf : DotDims.WF S64x4096x64 S64x1 S64x4096x1 [2] [0] [0, 1] [1] [] []

variable [Facts₀]

def dot_S64x4096x256_S256x64_S64x4096x64_2_0_01_1_n_n : DotDims S64x4096x256 S256x64 S64x4096x64 where
  lhsContracting := [2]
  rhsContracting := [0]
  lhsNonContracting := [0, 1]
  rhsNonContracting := [1]
  lhsBatch := []
  rhsBatch := []
  wf := dot_S64x4096x256_S256x64_S64x4096x64_2_0_01_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x4096x64_S64x1_S64x4096x1_2_0_01_1_n_n : DotDims S64x4096x64 S64x1 S64x4096x1 where
  lhsContracting := [2]
  rhsContracting := [0]
  lhsNonContracting := [0, 1]
  rhsNonContracting := [1]
  lhsBatch := []
  rhsBatch := []
  wf := dot_S64x4096x64_S64x1_S64x4096x1_2_0_01_1_n_n_wf

class Facts : Prop extends Facts₀ where

variable [Facts]
-- ==== Proof.Pieces.lean ====
/-
  What each case of the body leaves in each carried array, as the body's own arithmetic.

  The body runs in three cases. At a chunk's first point it resets the running shift, sum and weighted sums, stores the
  context's projection, and then does the common step over the values it has just stored. At the other points it does
  the common step over what the point before left. At a chunk's last point it also stores the quotient of the weighted
  sums by the sum, both read back after the common step has stored them. Each lemma says that the array a case leaves
  is one payload of the body (a pure function of the input blocks and of what the carried arrays held): every store
  covers its whole array, so the last store's payload is what the array holds, and a load of an array after a store is
  that store's payload.
-/
import proofs.«108072_j75788992906209_2_alg».proof.Proof.Gen.KernelIdeal.Frame
import Idealize.ShloMosaic.Lib.Pipeline.Value
import Idealize.ShloMosaic.Lib.Tactic

set_option maxRecDepth 16384

noncomputable section

namespace Cert.Pool.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- A chunk's first point leaves the context's projection in its array. -/
theorem first_proj (c : Dev nD) (i : grid0.Coords) (arg2 : Memref sig .tc .vmem S32x256x256 .f32) (harg2 : arg2.IsWhole) (arg3 : Memref sig .tc .vmem S32x128 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x256 .f32) (harg9 : arg9.IsWhole) (arg10 : Memref sig .tc .vmem S32x64 .f32) (harg10 : arg10.IsWhole) (hc0 : cond0_0 i) (hc1 : ¬cond0_1 i) (x0 : Vec F S32x256x256 .f32) (x1 : Vec F S32x128 .f32) (x2 : Vec F S384x64 .f32) (x3 : Vec F S64x1 .f32) :
    sout0_A_3 c i arg2 harg2 arg3 harg3 arg4 harg4 arg5 harg5 arg6 harg6 arg7 harg7 arg8 harg8 arg9 harg9 arg10 harg10 hc0 hc1 x0 x1 x2 x3 = k0_pay8 x1 x2 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S32x64) hz2]
  simp only [View.readCov_unit_zero (S := S32x64) _ hz2, View.readCov_unit_zero (S := S32x1) _ hz2,
    View.readCov_unit_zero (S := S32x256) _ hz2, View.readAt_eq_ld, harg2.read_unread, harg3.read_unread, harg4.read_unread, harg5.read_unread, harg6.read_unread, harg7.read_unread, harg8.read_unread, harg9.read_unread, harg10.read_unread,
    View.ld_unit_zero (S := S32x256x256) hz3, View.ld_unit_zero (S := S384x64) hz2, View.ld_unit_zero (S := S64x1) hz2,
    View.ld_unit_zero (S := S32x1) hz2, View.ld_unit_zero (S := S32x64) hz2, View.ld_unit_zero (S := S32x256) hz2, View.ld_unit_zero (S := S32x128) hz2]

/-- A chunk's first point leaves the new shift: the common step from the reset shift. -/
theorem first_shift (c : Dev nD) (i : grid0.Coords) (arg2 : Memref sig .tc .vmem S32x256x256 .f32) (harg2 : arg2.IsWhole) (arg3 : Memref sig .tc .vmem S32x128 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x256 .f32) (harg9 : arg9.IsWhole) (arg10 : Memref sig .tc .vmem S32x64 .f32) (harg10 : arg10.IsWhole) (hc0 : cond0_0 i) (hc1 : ¬cond0_1 i) (x0 : Vec F S32x256x256 .f32) (x1 : Vec F S32x128 .f32) (x2 : Vec F S384x64 .f32) (x3 : Vec F S64x1 .f32) :
    sout0_A_0 c i arg2 harg2 arg3 harg3 arg4 harg4 arg5 harg5 arg6 harg6 arg7 harg7 arg8 harg8 arg9 harg9 arg10 harg10 hc0 hc1 x0 x1 x2 x3 = k0_pay3 (k0_pay11 x0 x2 x3 (k0_pay8 x1 x2) k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S32x1) hz2]
  simp only [View.readCov_unit_zero (S := S32x64) _ hz2, View.readCov_unit_zero (S := S32x1) _ hz2,
    View.readCov_unit_zero (S := S32x256) _ hz2, View.readAt_eq_ld, harg2.read_unread, harg3.read_unread, harg4.read_unread, harg5.read_unread, harg6.read_unread, harg7.read_unread, harg8.read_unread, harg9.read_unread, harg10.read_unread,
    View.ld_unit_zero (S := S32x256x256) hz3, View.ld_unit_zero (S := S384x64) hz2, View.ld_unit_zero (S := S64x1) hz2,
    View.ld_unit_zero (S := S32x1) hz2, View.ld_unit_zero (S := S32x64) hz2, View.ld_unit_zero (S := S32x256) hz2, View.ld_unit_zero (S := S32x128) hz2]

/-- A chunk's first point leaves the new sum: the common step from the reset shift and sum. -/
theorem first_sum (c : Dev nD) (i : grid0.Coords) (arg2 : Memref sig .tc .vmem S32x256x256 .f32) (harg2 : arg2.IsWhole) (arg3 : Memref sig .tc .vmem S32x128 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x256 .f32) (harg9 : arg9.IsWhole) (arg10 : Memref sig .tc .vmem S32x64 .f32) (harg10 : arg10.IsWhole) (hc0 : cond0_0 i) (hc1 : ¬cond0_1 i) (x0 : Vec F S32x256x256 .f32) (x1 : Vec F S32x128 .f32) (x2 : Vec F S384x64 .f32) (x3 : Vec F S64x1 .f32) :
    sout0_A_1 c i arg2 harg2 arg3 harg3 arg4 harg4 arg5 harg5 arg6 harg6 arg7 harg7 arg8 harg8 arg9 harg9 arg10 harg10 hc0 hc1 x0 x1 x2 x3 = k0_pay1 (k0_pay14 x0 x2 x3 (k0_pay8 x1 x2) k0_pay5 k0_pay6) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S32x1) hz2]
  simp only [View.readCov_unit_zero (S := S32x64) _ hz2, View.readCov_unit_zero (S := S32x1) _ hz2,
    View.readCov_unit_zero (S := S32x256) _ hz2, View.readAt_eq_ld, harg2.read_unread, harg3.read_unread, harg4.read_unread, harg5.read_unread, harg6.read_unread, harg7.read_unread, harg8.read_unread, harg9.read_unread, harg10.read_unread,
    View.ld_unit_zero (S := S32x256x256) hz3, View.ld_unit_zero (S := S384x64) hz2, View.ld_unit_zero (S := S64x1) hz2,
    View.ld_unit_zero (S := S32x1) hz2, View.ld_unit_zero (S := S32x64) hz2, View.ld_unit_zero (S := S32x256) hz2, View.ld_unit_zero (S := S32x128) hz2]

/-- A chunk's first point leaves the new weighted sums: the common step from the reset values. -/
theorem first_wsum (c : Dev nD) (i : grid0.Coords) (arg2 : Memref sig .tc .vmem S32x256x256 .f32) (harg2 : arg2.IsWhole) (arg3 : Memref sig .tc .vmem S32x128 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x256 .f32) (harg9 : arg9.IsWhole) (arg10 : Memref sig .tc .vmem S32x64 .f32) (harg10 : arg10.IsWhole) (hc0 : cond0_0 i) (hc1 : ¬cond0_1 i) (x0 : Vec F S32x256x256 .f32) (x1 : Vec F S32x128 .f32) (x2 : Vec F S384x64 .f32) (x3 : Vec F S64x1 .f32) :
    sout0_A_2 c i arg2 harg2 arg3 harg3 arg4 harg4 arg5 harg5 arg6 harg6 arg7 harg7 arg8 harg8 arg9 harg9 arg10 harg10 hc0 hc1 x0 x1 x2 x3 = k0_pay2 (k0_pay9 x0) (k0_pay12 x0 x2 x3 (k0_pay8 x1 x2) k0_pay5) (k0_pay13 x0 x2 x3 (k0_pay8 x1 x2) k0_pay5) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S32x256) hz2]
  simp only [View.readCov_unit_zero (S := S32x64) _ hz2, View.readCov_unit_zero (S := S32x1) _ hz2,
    View.readCov_unit_zero (S := S32x256) _ hz2, View.readAt_eq_ld, harg2.read_unread, harg3.read_unread, harg4.read_unread, harg5.read_unread, harg6.read_unread, harg7.read_unread, harg8.read_unread, harg9.read_unread, harg10.read_unread,
    View.ld_unit_zero (S := S32x256x256) hz3, View.ld_unit_zero (S := S384x64) hz2, View.ld_unit_zero (S := S64x1) hz2,
    View.ld_unit_zero (S := S32x1) hz2, View.ld_unit_zero (S := S32x64) hz2, View.ld_unit_zero (S := S32x256) hz2, View.ld_unit_zero (S := S32x128) hz2]

/-- A middle point leaves the new shift. -/
theorem mid_shift (c : Dev nD) (i : grid0.Coords) (arg2 : Memref sig .tc .vmem S32x256x256 .f32) (harg2 : arg2.IsWhole) (arg3 : Memref sig .tc .vmem S32x128 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x256 .f32) (harg9 : arg9.IsWhole) (arg10 : Memref sig .tc .vmem S32x64 .f32) (harg10 : arg10.IsWhole) (hc0 : ¬cond0_0 i) (hc1 : ¬cond0_1 i) (x0 : Vec F S32x256x256 .f32) (x1 : Vec F S32x128 .f32) (x2 : Vec F S384x64 .f32) (x3 : Vec F S64x1 .f32) (xs0 : Vec F S32x1 .f32) (xs1 : Vec F S32x1 .f32) (xs2 : Vec F S32x256 .f32) (xs3 : Vec F S32x64 .f32) :
    sout0_B_0 c i arg2 harg2 arg3 harg3 arg4 harg4 arg5 harg5 arg6 harg6 arg7 harg7 arg8 harg8 arg9 harg9 arg10 harg10 hc0 hc1 x0 x1 x2 x3 xs0 xs1 xs2 xs3 = k0_pay3 (k0_pay11 x0 x2 x3 xs3 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_cons_unit_zero (S := S32x1) hz2]
  simp only [View.readCov_unit_zero (S := S32x64) _ hz2, View.readCov_unit_zero (S := S32x1) _ hz2,
    View.readCov_unit_zero (S := S32x256) _ hz2, View.readAt_eq_ld, harg2.read_unread, harg3.read_unread, harg4.read_unread, harg5.read_unread, harg6.read_unread, harg7.read_unread, harg8.read_unread, harg9.read_unread, harg10.read_unread,
    View.ld_unit_zero (S := S32x256x256) hz3, View.ld_unit_zero (S := S384x64) hz2, View.ld_unit_zero (S := S64x1) hz2,
    View.ld_unit_zero (S := S32x1) hz2, View.ld_unit_zero (S := S32x64) hz2, View.ld_unit_zero (S := S32x256) hz2, View.ld_unit_zero (S := S32x128) hz2]

/-- A middle point leaves the new sum. -/
theorem mid_sum (c : Dev nD) (i : grid0.Coords) (arg2 : Memref sig .tc .vmem S32x256x256 .f32) (harg2 : arg2.IsWhole) (arg3 : Memref sig .tc .vmem S32x128 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x256 .f32) (harg9 : arg9.IsWhole) (arg10 : Memref sig .tc .vmem S32x64 .f32) (harg10 : arg10.IsWhole) (hc0 : ¬cond0_0 i) (hc1 : ¬cond0_1 i) (x0 : Vec F S32x256x256 .f32) (x1 : Vec F S32x128 .f32) (x2 : Vec F S384x64 .f32) (x3 : Vec F S64x1 .f32) (xs0 : Vec F S32x1 .f32) (xs1 : Vec F S32x1 .f32) (xs2 : Vec F S32x256 .f32) (xs3 : Vec F S32x64 .f32) :
    sout0_B_1 c i arg2 harg2 arg3 harg3 arg4 harg4 arg5 harg5 arg6 harg6 arg7 harg7 arg8 harg8 arg9 harg9 arg10 harg10 hc0 hc1 x0 x1 x2 x3 xs0 xs1 xs2 xs3 = k0_pay1 (k0_pay14 x0 x2 x3 xs3 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_cons_unit_zero (S := S32x1) hz2]
  simp only [View.readCov_unit_zero (S := S32x64) _ hz2, View.readCov_unit_zero (S := S32x1) _ hz2,
    View.readCov_unit_zero (S := S32x256) _ hz2, View.readAt_eq_ld, harg2.read_unread, harg3.read_unread, harg4.read_unread, harg5.read_unread, harg6.read_unread, harg7.read_unread, harg8.read_unread, harg9.read_unread, harg10.read_unread,
    View.ld_unit_zero (S := S32x256x256) hz3, View.ld_unit_zero (S := S384x64) hz2, View.ld_unit_zero (S := S64x1) hz2,
    View.ld_unit_zero (S := S32x1) hz2, View.ld_unit_zero (S := S32x64) hz2, View.ld_unit_zero (S := S32x256) hz2, View.ld_unit_zero (S := S32x128) hz2]

/-- A middle point leaves the new weighted sums. -/
theorem mid_wsum (c : Dev nD) (i : grid0.Coords) (arg2 : Memref sig .tc .vmem S32x256x256 .f32) (harg2 : arg2.IsWhole) (arg3 : Memref sig .tc .vmem S32x128 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x256 .f32) (harg9 : arg9.IsWhole) (arg10 : Memref sig .tc .vmem S32x64 .f32) (harg10 : arg10.IsWhole) (hc0 : ¬cond0_0 i) (hc1 : ¬cond0_1 i) (x0 : Vec F S32x256x256 .f32) (x1 : Vec F S32x128 .f32) (x2 : Vec F S384x64 .f32) (x3 : Vec F S64x1 .f32) (xs0 : Vec F S32x1 .f32) (xs1 : Vec F S32x1 .f32) (xs2 : Vec F S32x256 .f32) (xs3 : Vec F S32x64 .f32) :
    sout0_B_2 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay9 x0) (k0_pay12 x0 x2 x3 xs3 xs0) (k0_pay13 x0 x2 x3 xs3 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_cons_unit_zero (S := S32x256) hz2]
  simp only [View.readCov_unit_zero (S := S32x64) _ hz2, View.readCov_unit_zero (S := S32x1) _ hz2,
    View.readCov_unit_zero (S := S32x256) _ hz2, View.readAt_eq_ld, harg2.read_unread, harg3.read_unread, harg4.read_unread, harg5.read_unread, harg6.read_unread, harg7.read_unread, harg8.read_unread, harg9.read_unread, harg10.read_unread,
    View.ld_unit_zero (S := S32x256x256) hz3, View.ld_unit_zero (S := S384x64) hz2, View.ld_unit_zero (S := S64x1) hz2,
    View.ld_unit_zero (S := S32x1) hz2, View.ld_unit_zero (S := S32x64) hz2, View.ld_unit_zero (S := S32x256) hz2, View.ld_unit_zero (S := S32x128) hz2]

/-- A chunk's last point leaves the new shift. -/
theorem last_shift (c : Dev nD) (i : grid0.Coords) (arg2 : Memref sig .tc .vmem S32x256x256 .f32) (harg2 : arg2.IsWhole) (arg3 : Memref sig .tc .vmem S32x128 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x256 .f32) (harg9 : arg9.IsWhole) (arg10 : Memref sig .tc .vmem S32x64 .f32) (harg10 : arg10.IsWhole) (hc0 : ¬cond0_0 i) (hc1 : cond0_1 i) (x0 : Vec F S32x256x256 .f32) (x1 : Vec F S32x128 .f32) (x2 : Vec F S384x64 .f32) (x3 : Vec F S64x1 .f32) (xs0 : Vec F S32x1 .f32) (xs1 : Vec F S32x1 .f32) (xs2 : Vec F S32x256 .f32) (xs3 : Vec F S32x64 .f32) :
    sout0_C_0 c i arg2 harg2 arg3 harg3 arg4 harg4 arg5 harg5 arg6 harg6 arg7 harg7 arg8 harg8 arg9 harg9 arg10 harg10 hc0 hc1 x0 x1 x2 x3 xs0 xs1 xs2 xs3 = k0_pay3 (k0_pay11 x0 x2 x3 xs3 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_cons_unit_zero (S := S32x1) hz2]
  simp only [View.readCov_unit_zero (S := S32x64) _ hz2, View.readCov_unit_zero (S := S32x1) _ hz2,
    View.readCov_unit_zero (S := S32x256) _ hz2, View.readAt_eq_ld, harg2.read_unread, harg3.read_unread, harg4.read_unread, harg5.read_unread, harg6.read_unread, harg7.read_unread, harg8.read_unread, harg9.read_unread, harg10.read_unread,
    View.ld_unit_zero (S := S32x256x256) hz3, View.ld_unit_zero (S := S384x64) hz2, View.ld_unit_zero (S := S64x1) hz2,
    View.ld_unit_zero (S := S32x1) hz2, View.ld_unit_zero (S := S32x64) hz2, View.ld_unit_zero (S := S32x256) hz2, View.ld_unit_zero (S := S32x128) hz2]

/-- A chunk's last point leaves the new sum. -/
theorem last_sum (c : Dev nD) (i : grid0.Coords) (arg2 : Memref sig .tc .vmem S32x256x256 .f32) (harg2 : arg2.IsWhole) (arg3 : Memref sig .tc .vmem S32x128 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x256 .f32) (harg9 : arg9.IsWhole) (arg10 : Memref sig .tc .vmem S32x64 .f32) (harg10 : arg10.IsWhole) (hc0 : ¬cond0_0 i) (hc1 : cond0_1 i) (x0 : Vec F S32x256x256 .f32) (x1 : Vec F S32x128 .f32) (x2 : Vec F S384x64 .f32) (x3 : Vec F S64x1 .f32) (xs0 : Vec F S32x1 .f32) (xs1 : Vec F S32x1 .f32) (xs2 : Vec F S32x256 .f32) (xs3 : Vec F S32x64 .f32) :
    sout0_C_1 c i arg2 harg2 arg3 harg3 arg4 harg4 arg5 harg5 arg6 harg6 arg7 harg7 arg8 harg8 arg9 harg9 arg10 harg10 hc0 hc1 x0 x1 x2 x3 xs0 xs1 xs2 xs3 = k0_pay1 (k0_pay14 x0 x2 x3 xs3 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_cons_unit_zero (S := S32x1) hz2]
  simp only [View.readCov_unit_zero (S := S32x64) _ hz2, View.readCov_unit_zero (S := S32x1) _ hz2,
    View.readCov_unit_zero (S := S32x256) _ hz2, View.readAt_eq_ld, harg2.read_unread, harg3.read_unread, harg4.read_unread, harg5.read_unread, harg6.read_unread, harg7.read_unread, harg8.read_unread, harg9.read_unread, harg10.read_unread,
    View.ld_unit_zero (S := S32x256x256) hz3, View.ld_unit_zero (S := S384x64) hz2, View.ld_unit_zero (S := S64x1) hz2,
    View.ld_unit_zero (S := S32x1) hz2, View.ld_unit_zero (S := S32x64) hz2, View.ld_unit_zero (S := S32x256) hz2, View.ld_unit_zero (S := S32x128) hz2]

/-- A chunk's last point leaves the new weighted sums. -/
theorem last_wsum (c : Dev nD) (i : grid0.Coords) (arg2 : Memref sig .tc .vmem S32x256x256 .f32) (harg2 : arg2.IsWhole) (arg3 : Memref sig .tc .vmem S32x128 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x256 .f32) (harg9 : arg9.IsWhole) (arg10 : Memref sig .tc .vmem S32x64 .f32) (harg10 : arg10.IsWhole) (hc0 : ¬cond0_0 i) (hc1 : cond0_1 i) (x0 : Vec F S32x256x256 .f32) (x1 : Vec F S32x128 .f32) (x2 : Vec F S384x64 .f32) (x3 : Vec F S64x1 .f32) (xs0 : Vec F S32x1 .f32) (xs1 : Vec F S32x1 .f32) (xs2 : Vec F S32x256 .f32) (xs3 : Vec F S32x64 .f32) :
    sout0_C_2 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay9 x0) (k0_pay12 x0 x2 x3 xs3 xs0) (k0_pay13 x0 x2 x3 xs3 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_cons_unit_zero (S := S32x256) hz2]
  simp only [View.readCov_unit_zero (S := S32x64) _ hz2, View.readCov_unit_zero (S := S32x1) _ hz2,
    View.readCov_unit_zero (S := S32x256) _ hz2, View.readAt_eq_ld, harg2.read_unread, harg3.read_unread, harg4.read_unread, harg5.read_unread, harg6.read_unread, harg7.read_unread, harg8.read_unread, harg9.read_unread, harg10.read_unread,
    View.ld_unit_zero (S := S32x256x256) hz3, View.ld_unit_zero (S := S384x64) hz2, View.ld_unit_zero (S := S64x1) hz2,
    View.ld_unit_zero (S := S32x1) hz2, View.ld_unit_zero (S := S32x64) hz2, View.ld_unit_zero (S := S32x256) hz2, View.ld_unit_zero (S := S32x128) hz2]

/-- A chunk's last point leaves, in the output block, the new weighted sums over the new sum. -/
theorem last_out (c : Dev nD) (i : grid0.Coords) (arg2 : Memref sig .tc .vmem S32x256x256 .f32) (harg2 : arg2.IsWhole) (arg3 : Memref sig .tc .vmem S32x128 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x256 .f32) (harg9 : arg9.IsWhole) (arg10 : Memref sig .tc .vmem S32x64 .f32) (harg10 : arg10.IsWhole) (hc0 : ¬cond0_0 i) (hc1 : cond0_1 i) (x0 : Vec F S32x256x256 .f32) (x1 : Vec F S32x128 .f32) (x2 : Vec F S384x64 .f32) (x3 : Vec F S64x1 .f32) (xs0 : Vec F S32x1 .f32) (xs1 : Vec F S32x1 .f32) (xs2 : Vec F S32x256 .f32) (xs3 : Vec F S32x64 .f32) :
    out0_C_4 c i arg2 harg2 arg3 harg3 arg4 harg4 arg5 harg5 arg6 harg6 arg7 harg7 arg8 harg8 arg9 harg9 arg10 harg10 hc0 hc1 x0 x1 x2 x3 xs0 xs1 xs2 xs3 = k0_pay4 (k0_pay2 (k0_pay9 x0) (k0_pay12 x0 x2 x3 xs3 xs0) (k0_pay13 x0 x2 x3 xs3 xs0) xs2) (k0_pay1 (k0_pay14 x0 x2 x3 xs3 xs0 xs1)) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_cons_unit_zero (S := S32x256) hz2]
  simp only [View.readCov_unit_zero (S := S32x64) _ hz2, View.readCov_unit_zero (S := S32x1) _ hz2,
    View.readCov_unit_zero (S := S32x256) _ hz2, View.readAt_eq_ld, harg2.read_unread, harg3.read_unread, harg4.read_unread, harg5.read_unread, harg6.read_unread, harg7.read_unread, harg8.read_unread, harg9.read_unread, harg10.read_unread,
    View.ld_unit_zero (S := S32x256x256) hz3, View.ld_unit_zero (S := S384x64) hz2, View.ld_unit_zero (S := S64x1) hz2,
    View.ld_unit_zero (S := S32x1) hz2, View.ld_unit_zero (S := S32x64) hz2, View.ld_unit_zero (S := S32x256) hz2, View.ld_unit_zero (S := S32x128) hz2]

end Cert.Pool.Pieces

end
-- ==== Proof.PointState.lean ====
/-
  What the carried arrays hold after each grid point, as the body's arithmetic.

  After a chunk's first point the four carried arrays hold the common step's results from the reset values, over the
  point's own blocks, and the context's projection of the point's context block. After any other point they hold the
  common step's results from what the point before left, and the projection is the one the point before left. After a
  chunk's last point the output block holds the quotient of the weighted sums by the sum, the two as this same point
  leaves them.
-/
import proofs.«108072_j75788992906209_2_alg».proof.Proof.Pieces

noncomputable section

namespace Cert.Pool.PointState

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- What the point before `t` left (the five arrays). -/
abbrev prev (c : Dev nD) (t : Fin cfg0.N) :=
  outsAt0 m c (t.val - 1) (Nat.lt_of_le_of_lt (Nat.sub_le _ _) t.isLt)

/-- After a chunk's first point: the context's projection. -/
theorem first_proj (c : Dev nD) (t : Fin cfg0.N) (h0 : t.val % 16 = 0) :
    (outsAt0 m c t.val t.isLt).2.2.2.2 = k0_pay8 (iblk m c 1 t) (iblk m c 2 t) := by
  have h1 : ¬t.val % 16 = 15 := by omega
  exact (congrArg (fun p => p.2.2.2.2) (outsAt0_A m c t h0 h1)).trans
    (Pieces.first_proj c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t))

/-- After a chunk's first point: the shift. -/
theorem first_shift (c : Dev nD) (t : Fin cfg0.N) (h0 : t.val % 16 = 0) :
    (outsAt0 m c t.val t.isLt).2.1 = k0_pay3 (k0_pay11 (iblk m c 0 t) (iblk m c 2 t) (iblk m c 3 t) (k0_pay8 (iblk m c 1 t) (iblk m c 2 t)) k0_pay5) := by
  have h1 : ¬t.val % 16 = 15 := by omega
  exact (congrArg (fun p => p.2.1) (outsAt0_A m c t h0 h1)).trans
    (Pieces.first_shift c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t))

/-- After a chunk's first point: the sum. -/
theorem first_sum (c : Dev nD) (t : Fin cfg0.N) (h0 : t.val % 16 = 0) :
    (outsAt0 m c t.val t.isLt).2.2.1 = k0_pay1 (k0_pay14 (iblk m c 0 t) (iblk m c 2 t) (iblk m c 3 t) (k0_pay8 (iblk m c 1 t) (iblk m c 2 t)) k0_pay5 k0_pay6) := by
  have h1 : ¬t.val % 16 = 15 := by omega
  exact (congrArg (fun p => p.2.2.1) (outsAt0_A m c t h0 h1)).trans
    (Pieces.first_sum c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t))

/-- After a chunk's first point: the weighted sums. -/
theorem first_wsum (c : Dev nD) (t : Fin cfg0.N) (h0 : t.val % 16 = 0) :
    (outsAt0 m c t.val t.isLt).2.2.2.1 = k0_pay2 (k0_pay9 (iblk m c 0 t)) (k0_pay12 (iblk m c 0 t) (iblk m c 2 t) (iblk m c 3 t) (k0_pay8 (iblk m c 1 t) (iblk m c 2 t)) k0_pay5) (k0_pay13 (iblk m c 0 t) (iblk m c 2 t) (iblk m c 3 t) (k0_pay8 (iblk m c 1 t) (iblk m c 2 t)) k0_pay5) k0_pay7 := by
  have h1 : ¬t.val % 16 = 15 := by omega
  exact (congrArg (fun p => p.2.2.2.1) (outsAt0_A m c t h0 h1)).trans
    (Pieces.first_wsum c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t))

/-- After any other point the projection is what the point before left. -/
theorem next_proj (c : Dev nD) (t : Fin cfg0.N) (h0 : ¬t.val % 16 = 0) :
    (outsAt0 m c t.val t.isLt).2.2.2.2 = (prev m c t).2.2.2.2 := by
  by_cases h1 : t.val % 16 = 15
  · exact congrArg (fun p => p.2.2.2.2) (outsAt0_C m c t h0 h1)
  · exact congrArg (fun p => p.2.2.2.2) (outsAt0_B m c t h0 h1)

/-- After any other point: the shift. -/
theorem next_shift (c : Dev nD) (t : Fin cfg0.N) (h0 : ¬t.val % 16 = 0) :
    (outsAt0 m c t.val t.isLt).2.1 = k0_pay3 (k0_pay11 (iblk m c 0 t) (iblk m c 2 t) (iblk m c 3 t) (prev m c t).2.2.2.2 (prev m c t).2.1) := by
  by_cases h1 : t.val % 16 = 15
  · exact (congrArg (fun p => p.2.1) (outsAt0_C m c t h0 h1)).trans
      (Pieces.last_shift c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2.1 (prev m c t).2.2.2.2)
  · exact (congrArg (fun p => p.2.1) (outsAt0_B m c t h0 h1)).trans
      (Pieces.mid_shift c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2.1 (prev m c t).2.2.2.2)

/-- After any other point: the sum. -/
theorem next_sum (c : Dev nD) (t : Fin cfg0.N) (h0 : ¬t.val % 16 = 0) :
    (outsAt0 m c t.val t.isLt).2.2.1 = k0_pay1 (k0_pay14 (iblk m c 0 t) (iblk m c 2 t) (iblk m c 3 t) (prev m c t).2.2.2.2 (prev m c t).2.1 (prev m c t).2.2.1) := by
  by_cases h1 : t.val % 16 = 15
  · exact (congrArg (fun p => p.2.2.1) (outsAt0_C m c t h0 h1)).trans
      (Pieces.last_sum c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2.1 (prev m c t).2.2.2.2)
  · exact (congrArg (fun p => p.2.2.1) (outsAt0_B m c t h0 h1)).trans
      (Pieces.mid_sum c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2.1 (prev m c t).2.2.2.2)

/-- After any other point: the weighted sums. -/
theorem next_wsum (c : Dev nD) (t : Fin cfg0.N) (h0 : ¬t.val % 16 = 0) :
    (outsAt0 m c t.val t.isLt).2.2.2.1 = k0_pay2 (k0_pay9 (iblk m c 0 t)) (k0_pay12 (iblk m c 0 t) (iblk m c 2 t) (iblk m c 3 t) (prev m c t).2.2.2.2 (prev m c t).2.1) (k0_pay13 (iblk m c 0 t) (iblk m c 2 t) (iblk m c 3 t) (prev m c t).2.2.2.2 (prev m c t).2.1) (prev m c t).2.2.2.1 := by
  by_cases h1 : t.val % 16 = 15
  · exact (congrArg (fun p => p.2.2.2.1) (outsAt0_C m c t h0 h1)).trans
      (Pieces.last_wsum c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2.1 (prev m c t).2.2.2.2)
  · exact (congrArg (fun p => p.2.2.2.1) (outsAt0_B m c t h0 h1)).trans
      (Pieces.mid_wsum c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2.1 (prev m c t).2.2.2.2)

/-- After a chunk's last point the output block is the quotient of the weighted sums by the sum, as this point leaves them. -/
theorem last_out (c : Dev nD) (t : Fin cfg0.N) (h0 : ¬t.val % 16 = 0) (h1 : t.val % 16 = 15) :
    (outsAt0 m c t.val t.isLt).1 = k0_pay4 (outsAt0 m c t.val t.isLt).2.2.2.1 (outsAt0 m c t.val t.isLt).2.2.1 := by
  rw [next_wsum m c t h0, next_sum m c t h0]
  exact (congrArg (fun p => p.1) (outsAt0_C m c t h0 h1)).trans
    (Pieces.last_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2.1 (prev m c t).2.2.2.2)

end Cert.Pool.PointState

end
-- ==== Proof.Blocks.lean ====
/-
  The input blocks of a grid point, read at an index.

  The grid has 2 × 16 points; point t works on batch chunk t / 16 and position tile t % 16. Its block of the sequence is
  rows 32·(t/16) … +31, positions 256·(t%16) … +255, all 256 features; its block of the context is the same 32 rows;
  W1 and W2 are staged whole. The output block of point t is rows 32·(t/16) … +31, all 256 columns. The block indices
  are decided once over the 32 points.
-/
import proofs.«108072_j75788992906209_2_alg».proof.Proof.Gen.KernelIdeal.Frame
import Idealize.ShloMosaic.Lib.Pipeline.Value
import Idealize.ShloMosaic.Lib.ValueIdx

noncomputable section

namespace Cert.Pool.Blocks

open Cert.KernelIdeal Cert.KernelIdeal.Gen Idealize.ShloMosaic Idealize.ShloMosaic.TcCoe Idealize.SL.Sem
  Idealize.ShloMosaic.ValueIdx

variable {F : FTy → Type} [FloatOps F]
variable (m : (ℓ : Loc nD τ sig) → Buf (Elt F) ℓ)

/-- Each window's block index at point t. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = t.val / 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0 :=
  (by decide +kernel : ∀ t : Fin grid0.N, _)

/-- The sequence's block at point t: entry (r, j, d) is the sequence at (32·(t/16) + r, 256·(t%16) + j, d). -/
theorem seq_block (c : Dev nD) (t : Fin cfg0.N) (r : Fin 32) (j : Fin 256) (d : Fin 256) (b : Fin 64) (p : Fin 4096)
    (hb : b.val = 32 * (t.val / 16) + r.val) (hp : p.val = 256 * (t.val % 16) + j.val) :
    (iblk m c 0 t : Vec F S32x256x256 .f32) (ix3 r j d) = m ((c : Thread nD τ).loc main_arg0) (ix3 b p d) := by
  obtain ⟨e0, e1, e2, -⟩ := idx_facts t
  show V m c main_arg0 (((cfg0.win 0).blk t).view.emb (ix3 r j d)) = V m c main_arg0 (ix3 b p d)
  refine congrArg _ (funext fun a => Fin.ext ?_)
  match a with
  | ⟨0, _⟩ => show win0_0.index t (0 : Fin 3) * 32 + 1 * r.val = b.val; omega
  | ⟨1, _⟩ => show win0_0.index t (1 : Fin 3) * 256 + 1 * j.val = p.val; omega
  | ⟨2, _⟩ => show win0_0.index t (2 : Fin 3) * 256 + 1 * d.val = d.val; omega

/-- The context's block at point t: entry (r, k) is the context at (32·(t/16) + r, k). -/
theorem ctx_block (c : Dev nD) (t : Fin cfg0.N) (r : Fin 32) (k : Fin 128) (b : Fin 64)
    (hb : b.val = 32 * (t.val / 16) + r.val) :
    (iblk m c 1 t : Vec F S32x128 .f32) (ix2 r k) = m ((c : Thread nD τ).loc main_arg1) (ix2 b k) := by
  obtain ⟨-, -, -, e0, e1, -⟩ := idx_facts t
  show V m c main_arg1 (((cfg0.win 1).blk t).view.emb (ix2 r k)) = V m c main_arg1 (ix2 b k)
  refine congrArg _ (funext fun a => Fin.ext ?_)
  match a with
  | ⟨0, _⟩ => show win0_1.index t (0 : Fin 2) * 32 + 1 * r.val = b.val; omega
  | ⟨1, _⟩ => show win0_1.index t (1 : Fin 2) * 128 + 1 * k.val = k.val; omega

/-- W1's block is W1. -/
theorem w1_block (c : Dev nD) (t : Fin cfg0.N) (i : S384x64.Idx) :
    (iblk m c 2 t : Vec F S384x64 .f32) i = m ((c : Thread nD τ).loc main_arg2) i := by
  obtain ⟨-, -, -, -, -, e0, e1, -⟩ := idx_facts t
  show V m c main_arg2 (((cfg0.win 2).blk t).view.emb i) = V m c main_arg2 i
  refine congrArg _ (funext fun a => Fin.ext ?_)
  match a with
  | ⟨0, _⟩ => show win0_2.index t (0 : Fin 2) * 384 + 1 * (i 0).val = (i 0).val; omega
  | ⟨1, _⟩ => show win0_2.index t (1 : Fin 2) * 64 + 1 * (i 1).val = (i 1).val; omega

/-- W2's block is W2. -/
theorem w2_block (c : Dev nD) (t : Fin cfg0.N) (i : S64x1.Idx) :
    (iblk m c 3 t : Vec F S64x1 .f32) i = m ((c : Thread nD τ).loc main_arg3) i := by
  obtain ⟨-, -, -, -, -, -, -, e0, e1, -⟩ := idx_facts t
  show V m c main_arg3 (((cfg0.win 3).blk t).view.emb i) = V m c main_arg3 i
  refine congrArg _ (funext fun a => Fin.ext ?_)
  match a with
  | ⟨0, _⟩ => show win0_3.index t (0 : Fin 2) * 64 + 1 * (i 0).val = (i 0).val; omega
  | ⟨1, _⟩ => show win0_3.index t (1 : Fin 2) * 1 + 1 * (i 1).val = (i 1).val; omega

end Cert.Pool.Blocks

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibBatchedProduct.lean ====
/-
  A batched matrix product read at an index, at the ideal values.

  For a stack of `B` matrix pairs, `[B, M, K]` against `[B, K, N]` (the batch axis leading on both sides, the left
  operand contracted on its last axis and the right one on its middle axis), the entry `(b, p, q)` of the product is
  `∑ k, l (b, p, k) * r (b, k, q)`: a sum over the `K` positions of the one contracted axis. The library states the
  product's entry as a sum over the dimension record's own contraction index; here that index is traded for `Fin K` and
  the two operand indices are written out by coordinates, for a kernel's `tpu.matmul` into the zero accumulator and for
  the host's `dot_general` alike — so that the two read as the same sum.
-/
import Idealize.ShloMosaic.PureOps.Ideal.Laws
import Idealize.ShloMosaic.Lib.ValueIdx

noncomputable section

namespace Cert.Lib

open Idealize.ShloMosaic Idealize.ShloMosaic.ValueIdx

/-- The dimension numbers of the batched product `[B, M, K] · [B, K, N] → [B, M, N]`: batch axis 0 on both sides, the
    left operand contracted on axis 2, the right one on axis 1. -/
def batched3 (B M K N : ℕ)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

variable {B M K N : ℕ}
  (wf : DotDims.WF ⟨3, ![B, M, K]⟩ ⟨3, ![B, K, N]⟩ ⟨3, ![B, M, N]⟩ [2] [1] [1] [2] [0] [0])

/-- The product's sum over the record's contraction index is the sum over the `K` positions of the contracted axis, the
    left operand read along row `p` of matrix `b` and the right one down column `q` of matrix `b`. -/
theorem batched3_sum (l : (⟨3, ![B, M, K]⟩ : Shape).Idx → EReal) (r : (⟨3, ![B, K, N]⟩ : Shape).Idx → EReal)
    (b : Fin B) (p : Fin M) (q : Fin N) :
    (∑ k : (batched3 B M K N wf).contr.Idx,
        l ((batched3 B M K N wf).lhsIdx (ix3 b p q) k) * r ((batched3 B M K N wf).rhsIdx (ix3 b p q) k))
      = ∑ k : Fin K, l (ix3 b p k) * r (ix3 b k q) := by
  refine (Equiv.sum_comp (contrEquiv1 (batched3 B M K N wf) K rfl rfl).symm _).symm.trans ?_
  refine Finset.sum_congr rfl fun k _ => ?_
  have hl : (batched3 B M K N wf).lhsIdx (ix3 b p q) ((contrEquiv1 (batched3 B M K N wf) K rfl rfl).symm k) = ix3 b p k := by
    funext a
    refine Fin.ext ?_
    match a with
    | ⟨0, _⟩ => rfl
    | ⟨1, _⟩ => rfl
    | ⟨2, _⟩ =>
      exact ((batched3 B M K N wf).lhsIdx_val_of_single (cl := 2) rfl _ _).trans
        (contrEquiv1_symm_val (batched3 B M K N wf) K rfl rfl k)
  have hr : (batched3 B M K N wf).rhsIdx (ix3 b p q) ((contrEquiv1 (batched3 B M K N wf) K rfl rfl).symm k) = ix3 b k q := by
    funext a
    refine Fin.ext ?_
    match a with
    | ⟨0, _⟩ => rfl
    | ⟨1, _⟩ =>
      exact ((batched3 B M K N wf).rhsIdx_val_of_single (cr := 1) rfl _ _).trans
        (contrEquiv1_symm_val (batched3 B M K N wf) K rfl rfl k)
    | ⟨2, _⟩ => rfl
  rw [hl, hr]

/-- A kernel's batched `tpu.matmul` into the zero accumulator, read at `(b, p, q)`. -/
theorem batched3_matmul_zero_apply {φ₁ φ₂ : FTy} (prec : Option ContractPrecision)
    (l : FVec Ideal ⟨3, ![B, M, K]⟩ φ₁) (r : FVec Ideal ⟨3, ![B, K, N]⟩ φ₂) (b : Fin B) (p : Fin M) (q : Fin N) :
    FloatOps.matmul (batched3 B M K N wf) prec l r (constant ⟨3, ![B, M, N]⟩ .f32 0x00000000#32) (ix3 b p q)
      = ∑ k : Fin K, l (ix3 b p k) * r (ix3 b k q) :=
  (Ideal.matmul_constant_zero_apply (batched3 B M K N wf) prec l r (ix3 b p q)).trans (batched3_sum wf l r b p q)

/-- The host's batched `dot_general`, read at `(b, p, q)`: the same sum. -/
theorem batched3_dotGeneral_apply {φ₁ φ₂ : FTy} (prec : Option ContractPrecision) (sched : HostSchedule)
    (l : FVec Ideal ⟨3, ![B, M, K]⟩ φ₁) (r : FVec Ideal ⟨3, ![B, K, N]⟩ φ₂) (b : Fin B) (p : Fin M) (q : Fin N) :
    FloatOps.dotGeneral (batched3 B M K N wf) prec sched l r (ix3 b p q)
      = ∑ k : Fin K, l (ix3 b p k) * r (ix3 b k q) :=
  (Ideal.dotGeneral_apply (batched3 B M K N wf) prec sched l r (ix3 b p q)).trans (batched3_sum wf l r b p q)

end Cert.Lib

end
-- ==== Proof.LibTileFlatten.lean ====
/-
  A stack of matrices flattened for a matrix product, and cut back.

  A [a, b, n] stack becomes a [m, n] matrix with m = a·b (what a reshape before a matrix product does) and a [m, n]
  result is cut back into a [a, b, n] stack: a cast keeps the row-major position, so row `r = p·b + q` of the matrix is
  entry (p, q) of the stack. With them, two repeats read at an index: a [a, b, 1] stack repeated along its last axis,
  and a vector [n] given two leading unit axes. Every lemma is generic in the extents and has both indices written by
  their coordinates.
-/
import Idealize.ShloMosaic.Lib.ValueLayout

namespace Cert.Lib

open Idealize.ShloMosaic Idealize.ShloMosaic.ValueIdx

variable {α : Type}

/-- A [a, b, n] stack flattened to a [m, n] matrix (m = a·b) reads, at row `r = p·b + q` and column k, the stack at
    (p, q, k). -/
theorem shapeCast_abn_mn_apply {a b n m : ℕ} (x : (⟨3, ![a, b, n]⟩ : Shape).Idx → α)
    (h : (⟨3, ![a, b, n]⟩ : Shape).ShapeCasts ⟨2, ![m, n]⟩) (p : Fin a) (q : Fin b) (k : Fin n) (r : Fin m)
    (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- A [m, n] matrix (m = a·b) cut into a [a, b, n] stack reads, at (p, q, k), the matrix at row `r = p·b + q`. -/
theorem shapeCast_mn_abn_apply {a b n m : ℕ} (x : (⟨2, ![m, n]⟩ : Shape).Idx → α)
    (h : (⟨2, ![m, n]⟩ : Shape).ShapeCasts ⟨3, ![a, b, n]⟩) (p : Fin a) (q : Fin b) (k : Fin n) (r : Fin m)
    (hr : r.val = p.val * b + q.val) :
    shapeCast ⟨3, ![a, b, n]⟩ x h (ix3 p q k) = x (ix2 r k) :=
  shapeCast_apply x h _ _ (by
    rw [Shape.rowMajor_val_three, Shape.rowMajor_val_two]
    show r.val * n + k.val = (p.val * b + q.val) * n + k.val
    rw [hr])

/-- A [a, b, 1] stack repeated along its last axis to [a, b, n] reads, at (p, q, k), the stack at (p, q, 0). -/
theorem broadcastTo_ab1_abn_apply {a b n : ℕ} (v : (⟨3, ![a, b, 1]⟩ : Shape).Idx → α)
    (h : (⟨3, ![a, b, 1]⟩ : Shape).Broadcasts ⟨3, ![a, b, n]⟩) (p : Fin a) (q : Fin b) (k : Fin n) :
    broadcastTo ⟨3, ![a, b, n]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector [n] given two leading unit axes reads, at (u, v, k), the vector at k. -/
theorem shapeCast_n_11n_apply {n : ℕ} (x : (⟨1, ![n]⟩ : Shape).Idx → α)
    (h : (⟨1, ![n]⟩ : Shape).ShapeCasts ⟨3, ![1, 1, n]⟩) (u v : Fin 1) (k : Fin n) :
    shapeCast ⟨3, ![1, 1, n]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * n + k.val
    rw [hu, hv]
    simp)

end Cert.Lib
-- ==== Proof.LibOuterStack.lean ====
/-
  A stack of all pairs of rows, read at an index given by coordinates.

  A value computed for every pair (row `p` of one matrix, row `q` of another) against the `n` entries of those rows
  lives in an `[a, b, n]` array.  Three operands meet there.  The first matrix, `[a, n]`, is cast to `[a, 1, n]` and
  repeated along the middle axis; the second, `[b, n]`, is cast to `[1, b, n]` and repeated along the first axis; a
  table of `n` entries, `[1, n]`, is cast to `[1, 1, n]` and repeated along both.  Read at `(p, q, k)` they are the first
  matrix at `(p, k)`, the second at `(q, k)` and the table at `k`.  A sum over the last axis of the stack, read at
  `(p, q)`, is the sum over `k` of the stack at `(p, q, k)`.  Beside them, a one-entry matrix `[1, 1]` repeated to
  `[a, b]` reads that entry everywhere.
-/
import Idealize.ShloMosaic.Lib.ValueLayout
import Idealize.ShloMosaic.PureOps.Ideal.Laws

namespace Cert.Lib

open Idealize.ShloMosaic Idealize.ShloMosaic.ValueIdx

variable {α : Type}

/-- An `[a, n]` matrix cast to `[a, 1, n]` reads, at `(p, u, k)`, the matrix at `(p, k)`. -/
theorem shapeCast_an_a1n_apply {a n : ℕ} (x : (⟨2, ![a, n]⟩ : Shape).Idx → α)
    (h : (⟨2, ![a, n]⟩ : Shape).ShapeCasts ⟨3, ![a, 1, n]⟩) (p : Fin a) (u : Fin 1) (k : Fin n) :
    shapeCast ⟨3, ![a, 1, n]⟩ x h (ix3 p u k) = x (ix2 p k) :=
  shapeCast_apply x h _ _ (by
    have hu : u.val = 0 := by omega
    rw [Shape.rowMajor_val_two, Shape.rowMajor_val_three]
    show p.val * n + k.val = (p.val * 1 + u.val) * n + k.val
    rw [hu, Nat.mul_one, Nat.add_zero])

/-- An `[a, 1, n]` array repeated along its middle axis to `[a, b, n]` reads, at `(p, q, k)`, the operand at `(p, 0, k)`. -/
theorem broadcastTo_a1n_abn_apply {a b n : ℕ} (x : (⟨3, ![a, 1, n]⟩ : Shape).Idx → α)
    (h : (⟨3, ![a, 1, n]⟩ : Shape).Broadcasts ⟨3, ![a, b, n]⟩) (p : Fin a) (q : Fin b) (k : Fin n) :
    broadcastTo ⟨3, ![a, b, n]⟩ x h (ix3 p q k) = x (ix3 p (0 : Fin 1) k) := by
  refine broadcastTo_apply x h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if n = 1 then 0 else k.val
    split
    · have := k.isLt; omega
    · rfl

/-- A `[1, b, n]` array repeated along its first axis to `[a, b, n]` reads, at `(p, q, k)`, the operand at `(0, q, k)`. -/
theorem broadcastTo_1bn_abn_apply {a b n : ℕ} (x : (⟨3, ![1, b, n]⟩ : Shape).Idx → α)
    (h : (⟨3, ![1, b, n]⟩ : Shape).Broadcasts ⟨3, ![a, b, n]⟩) (p : Fin a) (q : Fin b) (k : Fin n) :
    broadcastTo ⟨3, ![a, b, n]⟩ x h (ix3 p q k) = x (ix3 (0 : Fin 1) q k) := by
  refine broadcastTo_apply x h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if n = 1 then 0 else k.val
    split
    · have := k.isLt; omega
    · rfl

/-- A `[1, 1, n]` array repeated along its first two axes to `[a, b, n]` reads, at `(p, q, k)`, the operand at `(0, 0, k)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- A one-entry matrix repeated to `[a, b]` reads that entry everywhere. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

/-- Over the stack's last axis, the index above `(p, q)` with coordinate `k` inserted is `(p, q, k)`. -/
theorem lift_last_ix2 {a b n : ℕ} (h : (⟨3, ![a, b, n]⟩ : Shape).Reduces [2] ⟨2, ![a, b]⟩) (p : Fin a) (q : Fin b) (k : Fin n) :
    h.lift (ix2 p q) k = ix3 p q k := by
  funext c
  apply Fin.ext
  match c with
  | ⟨0, _⟩ => rfl
  | ⟨1, _⟩ => rfl
  | ⟨2, _⟩ => rfl

/-- At the ideal values, a sum over the last axis of an `[a, b, n]` stack, read at `(p, q)`, is the sum over `k` of the
    stack at `(p, q, k)`. -/
theorem laneSum_apply {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin n, src (ix3 p q k) := by
  refine (Ideal.multiReduction_add_single src acc h hφ hacc (ix2 p q)).trans ?_
  exact Finset.sum_congr rfl fun k _ => congrArg src (lift_last_ix2 h p q k)

end Cert.Lib
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibDropUnit.lean ====
/-
  Dropping a unit axis, cutting rows out of a matrix, and two pointwise functions read at an index.

  A column [a, 1] recast as the vector [a], and a stack [a, 1, n] recast as the matrix [a, n], keep every entry at its
  row-major position: the vector at i is the column at (i, 0), the matrix at (p, k) is the stack at (p, 0, k). A
  unit-stride slice of rows o, o+1, …, o+n-1 of an [N, C] matrix read at (p, q) is the matrix at (o + p, q). At the
  extended reals the exponential and the hyperbolic tangent of an array are taken entry by entry. Every lemma is generic
  in the extents and has its indices written by coordinates.
-/
import Idealize.ShloMosaic.Lib.ValueLayout
import Idealize.ShloMosaic.PureOps.Ideal.Laws

noncomputable section

namespace Cert.Lib

open Idealize.ShloMosaic Idealize.ShloMosaic.ValueIdx

variable {α : Type}

/-- A column [a, 1] recast as the vector [a] reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A stack [a, 1, n] recast as the matrix [a, n] reads, at (p, k), the stack at (p, 0, k). -/
theorem shapeCast_a1n_an_apply {a n : ℕ} (x : (⟨3, ![a, 1, n]⟩ : Shape).Idx → α)
    (h : (⟨3, ![a, 1, n]⟩ : Shape).ShapeCasts ⟨2, ![a, n]⟩) (p : Fin a) (k : Fin n) :
    shapeCast ⟨2, ![a, n]⟩ x h (ix2 p k) = x (ix3 p (0 : Fin 1) k) :=
  shapeCast_apply x h _ _ (by
    rw [Shape.rowMajor_val_three, Shape.rowMajor_val_two]
    show (p.val * 1 + 0) * n + k.val = p.val * n + k.val
    rw [Nat.mul_one, Nat.add_zero])

/-- Rows o … o+n-1 of an [N, C] matrix, read at (p, q): the matrix at row o + p (named `p'`), column q. -/
theorem slice_rows_apply {N C n : ℕ} (o : ℕ) (x : (⟨2, ![N, C]⟩ : Shape).Idx → α)
    (h : (⟨2, ![N, C]⟩ : Shape).Slices ![o, 0] ⟨2, ![n, C]⟩) (p : Fin n) (q : Fin C) (p' : Fin N)
    (hp : p'.val = o + p.val) :
    extractStridedSlice ⟨2, ![n, C]⟩ ![o, 0] x h (ix2 p q) = x (ix2 p' q) :=
  extractStridedSlice_apply ![o, 0] x h (ix2 p q) (ix2 p' q) (fun a => match a with
    | ⟨0, _⟩ => by show p'.val = o + p.val; exact hp
    | ⟨1, _⟩ => by show q.val = 0 + q.val; rw [Nat.zero_add])

/-- The exponential of an array of extended reals, read at an index. -/
theorem exp_apply {s : Shape} {φ : FTy} (v : FVec Ideal s φ) (i : s.Idx) : exp v i = Ideal.exp (v i) := rfl

/-- The hyperbolic tangent of an array of extended reals, read at an index. -/
theorem tanh_apply {s : Shape} {φ : FTy} (v : FVec Ideal s φ) (i : s.Idx) : tanh v i = Ideal.tanh (v i) := rfl

end Cert.Lib

end
-- ==== Proof.PoolSpec.lean ====
/-
  The pooled attention as one function of the four argument arrays, over the real numbers.

  sequence is [64, 4096, 256], context [64, 128], W1 [384, 64] (its first 256 rows meet the sequence's features, its last
  128 rows the context's) and W2 [64, 1]. For batch row b and position t the score is
      score b t = ∑ u, tanh ((∑ d, sequence (b,t,d) · W1 (d,u)) + (∑ c, context (b,c) · W1 (256+c,u))) · W2 (u,0)
  and the result at (b, d) is the softmax over t of the scores, applied to column d of the sequence:
      pooled b d = (∑ t, exp (score b t) · sequence (b,t,d)) / (∑ t, exp (score b t)).
  The positions are also read through natural numbers (scoreN, valN: 0 beyond the last position), the form in which a
  tile-by-tile computation meets them.
-/
import Mathlib.Analysis.SpecialFunctions.Trigonometric.DerivHyp
import Idealize.ShloMosaic.Lib.ValueIdx

noncomputable section

open scoped BigOperators

namespace Cert.Pool

open Idealize.ShloMosaic Idealize.ShloMosaic.ValueIdx

/-- Row d of W1's first part, which meets feature d of the sequence. -/
def w1lo (d : Fin 256) : Fin 384 := ⟨d.val, by have := d.isLt; omega⟩
/-- Row 256 + c of W1, which meets entry c of the context. -/
def w1hi (c : Fin 128) : Fin 384 := ⟨256 + c.val, by have := c.isLt; omega⟩

variable (sR : (⟨3, ![64, 4096, 256]⟩ : Shape).Idx → ℝ) (cR : (⟨2, ![64, 128]⟩ : Shape).Idx → ℝ)
  (w1 : (⟨2, ![384, 64]⟩ : Shape).Idx → ℝ) (w2 : (⟨2, ![64, 1]⟩ : Shape).Idx → ℝ)

/-- The context's projection: row b of context times the last 128 rows of W1. -/
def ctxProj (b : Fin 64) (u : Fin 64) : ℝ := ∑ c : Fin 128, cR (ix2 b c) * w1 (ix2 (w1hi c) u)

/-- The sequence's projection at (b, t): row (b, t) of sequence times the first 256 rows of W1. -/
def seqProj (b : Fin 64) (t : Fin 4096) (u : Fin 64) : ℝ := ∑ d : Fin 256, sR (ix3 b t d) * w1 (ix2 (w1lo d) u)

/-- The attention score of position t in batch row b. -/
def score (b : Fin 64) (t : Fin 4096) : ℝ :=
  ∑ u : Fin 64, Real.tanh (seqProj sR w1 b t u + ctxProj cR w1 b u) * w2 (ix2 u (0 : Fin 1))

/-- The score at a natural-number position (0 beyond the last). -/
def scoreN (b : Fin 64) (τ : ℕ) : ℝ := if h : τ < 4096 then score sR cR w1 w2 b ⟨τ, h⟩ else 0

/-- The sequence's row at a natural-number position (0 beyond the last). -/
def valN (b : Fin 64) (τ : ℕ) (d : Fin 256) : ℝ := if h : τ < 4096 then sR (ix3 b ⟨τ, h⟩ d) else 0

/-- THE RESULT at (b, d): the softmax of the scores of row b, pooling column d of the sequence. -/
def pooled (b : Fin 64) (d : Fin 256) : ℝ :=
  (∑ τ ∈ Finset.range 4096, Real.exp (scoreN sR cR w1 w2 b τ) * valN sR b τ d)
    / (∑ τ ∈ Finset.range 4096, Real.exp (scoreN sR cR w1 w2 b τ))

theorem scoreN_of_lt (b : Fin 64) (t : Fin 4096) : scoreN sR cR w1 w2 b t.val = score sR cR w1 w2 b t := by
  unfold scoreN; rw [dif_pos t.isLt]

theorem valN_of_lt (b : Fin 64) (t : Fin 4096) (d : Fin 256) : valN sR b t.val d = sR (ix3 b t d) := by
  unfold valN; rw [dif_pos t.isLt]

end Cert.Pool

end
-- ==== Proof.TileValue.lean ====
/-
  What one grid point's body computes, entry by entry, on the extended reals.

  At a grid point the body sees a tile of 32 batch rows × 256 positions of the sequence (`x`, [32, 256, 256]), the
  whole of W1 and W2, and four carried arrays: the running shift [32, 1], the running sum [32, 1], the running weighted
  sums [32, 256] and the context's projection [32, 64]. Each value it stores is read here at an index:
    the context's projection   (r, u) ↦ ∑ c, ctx (r, c) · W1 (256 + c, u)
    the tile's scores          (r, j) ↦ ∑ u, tanh ((∑ d, x (r, j, d) · W1 (d, u)) + proj (r, u)) · W2 (u, 0)
    the new shift              r ↦ max (old shift r) (max over j of the scores, folded from -∞)
    the rescaling factor       r ↦ exp (old shift r - new shift r)
    the tile's weights         (r, j) ↦ exp (score (r, j) - new shift r)
    the new sum                r ↦ factor r · old sum r + ∑ j, weight (r, j)
    the new weighted sums      (r, d) ↦ factor r · old (r, d) + ∑ j, weight (r, j) · x (r, j, d)
    the quotient               (r, d) ↦ weighted sum (r, d) / sum r
  The matrix products are sums over the contracted axis (into a zero accumulator), the changes of float format are
  the identity, and the reshapes between [32, 256, ·] and [8192, ·] keep row r·256 + j at (r, j).
-/
import proofs.«108072_j75788992906209_2_alg».proof.Proof.Gen.KernelIdeal.Skeleton
import proofs.«108072_j75788992906209_2_alg».proof.Proof.LibMatmul2
import proofs.«108072_j75788992906209_2_alg».proof.Proof.LibBatchedProduct
import proofs.«108072_j75788992906209_2_alg».proof.Proof.LibTileFlatten
import proofs.«108072_j75788992906209_2_alg».proof.Proof.LibOuterStack
import proofs.«108072_j75788992906209_2_alg».proof.Proof.LibKeepdims
import proofs.«108072_j75788992906209_2_alg».proof.Proof.LibDropUnit
import proofs.«108072_j75788992906209_2_alg».proof.Proof.PoolSpec

noncomputable section

open scoped BigOperators

namespace Cert.Pool.Tile

open Cert.KernelIdeal Cert.KernelIdeal.Gen Idealize.ShloMosaic Idealize.ShloMosaic.ValueIdx Cert.Pool

/-- Row r·256 + j of the flattened tile. -/
def flat (r : Fin 32) (j : Fin 256) : Fin 8192 := ⟨r.val * 256 + j.val, by have := r.isLt; have := j.isLt; omega⟩

/-- The context's projection for a chunk of 32 rows. -/
theorem ctx_apply (v68 : Vec Ideal S32x128 .f32) (v69 : Vec Ideal S384x64 .f32) (r : Fin 32) (u : Fin 64) :
    k0_pay8 v68 v69 (ix2 r u) = ∑ c : Fin 128, v68 (ix2 r c) * v69 (ix2 (w1hi c) u) := by
  unfold k0_pay8
  rw [shapeCast_self]
  refine (Cert.Lib.matmul2_zero_apply dot_S32x128_S128x64_S32x64_1_0_0_1_n_n_wf _ _ r u).trans ?_
  refine Finset.sum_congr rfl fun c _ => ?_
  congr 1
  show extractStridedSlice S128x64 ![256, 0] v69 slices_S384x64_o256_0_S128x64 (ix2 c u) = _
  exact Cert.Lib.slice_rows_apply 256 v69 slices_S384x64_o256_0_S128x64 c u (w1hi c) rfl

/-- The tile's scores. -/
theorem scores_apply (v3 : Vec Ideal S32x256x256 .f32) (v4 : Vec Ideal S384x64 .f32) (v5 : Vec Ideal S64x1 .f32)
    (v12 : Vec Ideal S32x64 .f32) (r : Fin 32) (j : Fin 256) :
    k0_pay10 v3 v4 v5 v12 (ix2 r j)
      = ∑ u : Fin 64, Ideal.tanh ((∑ d : Fin 256, v3 (ix3 r j d) * v4 (ix2 (w1lo d) u)) + v12 (ix2 r u))
          * v5 (ix2 u (0 : Fin 1)) := by
  unfold k0_pay10 k0_pay9
  refine (Cert.Lib.laneSum_apply _ _ _ _ _ r j).trans ?_
  refine Finset.sum_congr rfl fun u _ => ?_
  rw [mulf_apply, Cert.Lib.tanh_apply, addf_apply]
  congr 1
  · congr 2
    · refine (Cert.Lib.shapeCast_mn_abn_apply _ _ r j u (flat r j) rfl).trans ?_
      refine (Cert.Lib.matmul2_zero_apply dot_S8192x256_S256x64_S8192x64_1_0_0_1_n_n_wf _ _ (flat r j) u).trans ?_
      refine Finset.sum_congr rfl fun d _ => ?_
      congr 1
      · exact Cert.Lib.shapeCast_abn_mn_apply _ _ r j d (flat r j) rfl
      · show extractStridedSlice S256x64 ![0, 0] v4 slices_S384x64_o0_0_S256x64 (ix2 d u) = _
        exact Cert.Lib.slice_rows_apply 0 v4 slices_S384x64_o0_0_S256x64 d u (w1lo d) (by show d.val = 0 + d.val; omega)
    · exact (Cert.Lib.broadcastTo_a1n_abn_apply _ _ r j u).trans (Cert.Lib.shapeCast_an_a1n_apply _ _ r 0 u)
  · exact (Cert.Lib.broadcastTo_11n_abn_apply _ _ r j u).trans
      ((Cert.Lib.shapeCast_n_11n_apply _ _ 0 0 u).trans (Cert.Lib.shapeCast_a1_a_apply _ _ u))

/-- The new shift: the old one against the tile's maximum. -/
theorem shift_apply (v3 : Vec Ideal S32x256x256 .f32) (v4 : Vec Ideal S384x64 .f32) (v5 : Vec Ideal S64x1 .f32)
    (v12 : Vec Ideal S32x64 .f32) (v24 : Vec Ideal S32x1 .f32) (r : Fin 32) (z : Fin 1) :
    k0_pay11 v3 v4 v5 v12 v24 (ix2 r z)
      = max (v24 (ix2 r z)) ((Finset.univ : Finset (Fin 256)).fold max (Ideal.ofBits .f32 0xFF800000#32)
          (fun j => k0_pay10 v3 v4 v5 v12 (ix2 r j))) := by
  unfold k0_pay11
  rw [maximumf_apply]
  congr 1
  exact (Cert.Lib.shapeCast_a_a1_apply _ _ r z).trans (Cert.Lib.rowMax_apply _ _ _ _ _ r)

/-- The rescaling factor. -/
theorem factor_apply (v3 : Vec Ideal S32x256x256 .f32) (v4 : Vec Ideal S384x64 .f32) (v5 : Vec Ideal S64x1 .f32)
    (v12 : Vec Ideal S32x64 .f32) (v24 : Vec Ideal S32x1 .f32) (r : Fin 32) (z : Fin 1) :
    k0_pay12 v3 v4 v5 v12 v24 (ix2 r z) = Ideal.exp (v24 (ix2 r z) - k0_pay11 v3 v4 v5 v12 v24 (ix2 r z)) := by
  unfold k0_pay12
  rw [Cert.Lib.exp_apply, subf_apply]

/-- The tile's weights. -/
theorem weights_apply (v3 : Vec Ideal S32x256x256 .f32) (v4 : Vec Ideal S384x64 .f32) (v5 : Vec Ideal S64x1 .f32)
    (v12 : Vec Ideal S32x64 .f32) (v24 : Vec Ideal S32x1 .f32) (r : Fin 32) (j : Fin 256) :
    k0_pay13 v3 v4 v5 v12 v24 (ix2 r j)
      = Ideal.exp (k0_pay10 v3 v4 v5 v12 (ix2 r j) - k0_pay11 v3 v4 v5 v12 v24 (ix2 r (0 : Fin 1))) := by
  unfold k0_pay13
  rw [Cert.Lib.exp_apply, subf_apply]
  congr 2
  exact Cert.Lib.broadcastTo_a1_ab_apply _ _ r j

/-- The new sum. -/
theorem sum_apply (v3 : Vec Ideal S32x256x256 .f32) (v4 : Vec Ideal S384x64 .f32) (v5 : Vec Ideal S64x1 .f32)
    (v12 : Vec Ideal S32x64 .f32) (v24 v31 : Vec Ideal S32x1 .f32) (r : Fin 32) (z : Fin 1) :
    k0_pay14 v3 v4 v5 v12 v24 v31 (ix2 r z)
      = k0_pay12 v3 v4 v5 v12 v24 (ix2 r z) * v31 (ix2 r z) + ∑ j : Fin 256, k0_pay13 v3 v4 v5 v12 v24 (ix2 r j) := by
  unfold k0_pay14
  rw [addf_apply, mulf_apply]
  congr 1
  exact (Cert.Lib.shapeCast_a_a1_apply _ _ r z).trans (Cert.Lib.rowSum_apply _ _ _ _ _ r)

/-- The new weighted sums: the batched product of the weights (as one row per batch row) with the tile. -/
theorem wsum_apply (v7 : FVec Ideal S32x256x256 .bf16) (v27 : FVec Ideal S32x1 .f32) (v30 : FVec Ideal S32x256 .f32)
    (v43 : Vec Ideal S32x256 .f32) (r : Fin 32) (d : Fin 256) :
    k0_pay2 v7 v27 v30 v43 (ix2 r d)
      = v27 (ix2 r (0 : Fin 1)) * v43 (ix2 r d) + ∑ j : Fin 256, v30 (ix2 r j) * v7 (ix3 r j d) := by
  unfold k0_pay2
  rw [shapeCast_self, addf_apply, mulf_apply]
  congr 1
  · congr 1
    exact Cert.Lib.broadcastTo_a1_ab_apply _ _ r d
  · refine (Cert.Lib.shapeCast_a1n_an_apply _ _ r d).trans ?_
    refine (Cert.Lib.batched3_matmul_zero_apply dot_S32x1x256_S32x256x256_S32x1x256_2_1_1_2_0_0_wf none _ _ r 0 d).trans ?_
    refine Finset.sum_congr rfl fun j _ => ?_
    congr 1
    exact Cert.Lib.shapeCast_an_a1n_apply _ _ r 0 j

/-- The quotient stored at a chunk's last point. -/
theorem quot_apply (v56 : Vec Ideal S32x256 .f32) (v57 : Vec Ideal S32x1 .f32) (r : Fin 32) (d : Fin 256) :
    k0_pay4 v56 v57 (ix2 r d) = Ideal.div (v56 (ix2 r d)) (v57 (ix2 r (0 : Fin 1))) := by
  unfold k0_pay4
  rw [divf_apply]
  congr 1
  exact Cert.Lib.broadcastTo_a1_ab_apply _ _ r d

/-- The float word 0xFF800000 is -∞. -/
theorem ofBits_neg_inf : Ideal.ofBits .f32 0xFF800000#32 = ⊥ := by simp [Ideal.ofBits, Ideal.ieee]

/-- The reset values: the shift starts at -∞, -/
theorem reset_shift_apply (i : S32x1.Idx) : k0_pay5 (F := Ideal) i = ⊥ := by
  unfold k0_pay5
  rw [shapeCast_self]
  exact ofBits_neg_inf

/-- the sum at 0, -/
theorem reset_sum_apply (i : S32x1.Idx) : k0_pay6 (F := Ideal) i = 0 := by
  unfold k0_pay6
  rw [shapeCast_self]
  exact Ideal.ofBits_zero_f32

/-- and the weighted sums at 0. -/
theorem reset_wsum_apply (i : S32x256.Idx) : k0_pay7 (F := Ideal) i = 0 := by
  unfold k0_pay7
  rw [shapeCast_self]
  exact Ideal.ofBits_zero_f32

/-- The three stores of values unchanged: a cast to the same shape is the identity. -/
theorem pay1_eq {F : FTy → Type} [FloatOps F] (v : FVec F S32x1 .f32) : k0_pay1 v = v := shapeCast_self _ _
theorem pay3_eq {F : FTy → Type} [FloatOps F] (v : FVec F S32x1 .f32) : k0_pay3 v = v := shapeCast_self _ _

end Cert.Pool.Tile

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.PoolAlgebra.lean ====
/-
  The running softmax of one row, on the extended reals.

  A row of scores ℓ τ (real numbers) and of values s τ d (real numbers, one per output column d) is pooled as
      (∑ τ, exp (ℓ τ) · s τ d) / (∑ τ, exp (ℓ τ)).
  A running computation visits the positions tile by tile and keeps three numbers per row: a shift μ, the sum
  ∑ exp (ℓ τ - μ) over the positions seen so far, and for every column the sum ∑ exp (ℓ τ - μ) · s τ d. When a new
  tile arrives the shift moves to μ' (the larger of μ and the tile's maximum) and both sums are multiplied by
  exp (μ - μ'): since exp (μ - μ') · exp (ℓ τ - μ) = exp (ℓ τ - μ'), the state is again of the same form, now over
  more positions and relative to μ'. The value of the shift never matters: only that it is a real number. At the end
  the quotient of the two sums is the pooled value, the common factor exp (-μ) cancelling.

  Before the first tile the shift is -∞ and both sums are 0; exp (-∞ - μ') = 0 makes the first step the same formula.
-/
import Idealize.ShloMosaic.PureOps.Ideal
import proofs.«108072_j75788992906209_2_alg».proof.Proof.LibERealSum

noncomputable section

open scoped BigOperators
open Idealize.ShloMosaic

namespace Cert.Pool

variable {D : Type}

/-- A maximum folded from -∞ over a nonempty finite family of real numbers is a real number. -/
theorem fold_max_real {K : ℕ} (hK : 0 < K) (f : Fin K → ℝ) :
    ∃ ρ : ℝ, (Finset.univ : Finset (Fin K)).fold max (⊥ : EReal) (fun j => ((f j : ℝ) : EReal)) = (ρ : EReal) := by
  have h1 : (Finset.univ : Finset (Fin K)).fold max (⊥ : EReal) (fun j => ((f j : ℝ) : EReal)) < ⊤ :=
    (Finset.fold_max_lt _).2 ⟨bot_lt_top, fun j _ => EReal.coe_lt_top _⟩
  have h2 : (⊥ : EReal) < (Finset.univ : Finset (Fin K)).fold max (⊥ : EReal) (fun j => ((f j : ℝ) : EReal)) :=
    (Finset.lt_fold_max _).2 (Or.inr ⟨⟨0, hK⟩, Finset.mem_univ _, EReal.bot_lt_coe _⟩)
  exact ⟨_, (EReal.coe_toReal h1.ne h2.ne').symm⟩

/-- Moving the shift from μ to μ' and appending a tile of K positions: the sum over the first N positions relative to μ,
    times exp (μ - μ'), plus the tile's terms relative to μ', is the sum over the first N + K positions relative to μ'. -/
theorem rescale (ℓ w : ℕ → ℝ) (μ μ' : ℝ) (N K : ℕ) :
    Real.exp (μ - μ') * (∑ τ ∈ Finset.range N, Real.exp (ℓ τ - μ) * w τ)
        + ∑ j : Fin K, Real.exp (ℓ (N + j) - μ') * w (N + j)
      = ∑ τ ∈ Finset.range (N + K), Real.exp (ℓ τ - μ') * w τ := by
  rw [Finset.sum_range_add, Finset.mul_sum,
    Fin.sum_univ_eq_sum_range (fun j => Real.exp (ℓ (N + j) - μ') * w (N + j))]
  congr 1
  refine Finset.sum_congr rfl fun τ _ => ?_
  rw [← mul_assoc, ← Real.exp_add]
  congr 2
  ring

/-- The same without weights. -/
theorem rescale_one (ℓ : ℕ → ℝ) (μ μ' : ℝ) (N K : ℕ) :
    Real.exp (μ - μ') * (∑ τ ∈ Finset.range N, Real.exp (ℓ τ - μ))
        + ∑ j : Fin K, Real.exp (ℓ (N + j) - μ')
      = ∑ τ ∈ Finset.range (N + K), Real.exp (ℓ τ - μ') := by
  have h := rescale ℓ (fun _ => 1) μ μ' N K
  simpa only [mul_one] using h

/-- THE STATE of one row after its first N positions: the stored shift `mv`, the stored sum `lv` and the stored weighted
    sums `av d`. Either nothing has been seen (shift -∞, sums 0), or the shift is a real number μ and the sums are those
    of exp (ℓ τ - μ) over the positions seen. -/
def Run (ℓ : ℕ → ℝ) (s : ℕ → D → ℝ) (N : ℕ) (mv lv : EReal) (av : D → EReal) : Prop :=
  (N = 0 ∧ mv = ⊥ ∧ lv = 0 ∧ ∀ d, av d = 0) ∨
  ∃ μ : ℝ, mv = (μ : EReal) ∧ lv = ((∑ τ ∈ Finset.range N, Real.exp (ℓ τ - μ) : ℝ) : EReal)
    ∧ ∀ d, av d = ((∑ τ ∈ Finset.range N, Real.exp (ℓ τ - μ) * s τ d : ℝ) : EReal)

/-- The state before any position. -/
theorem Run.empty (ℓ : ℕ → ℝ) (s : ℕ → D → ℝ) : Run ℓ s 0 ⊥ 0 (fun _ => 0) :=
  Or.inl ⟨rfl, rfl, rfl, fun _ => rfl⟩

/-- ONE TILE. From a state over N positions, a tile of K ≥ 1 positions with scores `lam j` = ℓ (N + j) and values
    `x j d` = s (N + j) d: the new shift `m'` is the larger of the old one and the tile's maximum (folded from -∞), the
    sums are the old ones times exp (old shift - m') plus the tile's terms relative to m' — a state over N + K. -/
theorem Run.step {ℓ : ℕ → ℝ} {s : ℕ → D → ℝ} {N K : ℕ} (hK : 0 < K) {mv lv : EReal} {av : D → EReal}
    (h : Run ℓ s N mv lv av) (lam : Fin K → EReal) (x : Fin K → D → EReal)
    (hlam : ∀ j, lam j = ((ℓ (N + j) : ℝ) : EReal)) (hx : ∀ j d, x j d = ((s (N + j) d : ℝ) : EReal))
    (m' : EReal) (hm' : m' = max mv ((Finset.univ : Finset (Fin K)).fold max ⊥ lam)) :
    Run ℓ s (N + K) m' (Ideal.exp (mv - m') * lv + ∑ j, Ideal.exp (lam j - m'))
      (fun d => Ideal.exp (mv - m') * av d + ∑ j, Ideal.exp (lam j - m') * x j d) := by
  obtain rfl : lam = fun j : Fin K => ((ℓ (N + j) : ℝ) : EReal) := funext hlam
  obtain ⟨ρ, hρ⟩ := fold_max_real hK (fun j : Fin K => ℓ (N + j))
  rw [hρ] at hm'
  rcases h with ⟨rfl, rfl, rfl, hav⟩ | ⟨μ, rfl, rfl, hav⟩
  · obtain rfl : m' = (ρ : EReal) := by rw [hm']; exact max_eq_right bot_le
    have e : Ideal.exp ((⊥ : EReal) - (ρ : EReal)) = 0 := by
      rw [sub_eq_add_neg, EReal.bot_add]; rfl
    refine Or.inr ⟨ρ, rfl, ?_, fun d => ?_⟩
    · rw [e, zero_mul, zero_add]
      simp only [← EReal.coe_sub, Ideal.exp_coe, Cert.Lib.sum_coe]
      have h := rescale_one ℓ ρ ρ 0 K
      simp only [Finset.range_zero, Finset.sum_empty, mul_zero, zero_add] at h
      simp only [zero_add]
      rw [h]
    · dsimp only
      rw [e, zero_mul, zero_add]
      simp only [hx, ← EReal.coe_sub, Ideal.exp_coe, ← EReal.coe_mul, Cert.Lib.sum_coe]
      have h := rescale ℓ (fun τ => s τ d) ρ ρ 0 K
      simp only [Finset.range_zero, Finset.sum_empty, mul_zero, zero_add] at h
      simp only [zero_add]
      rw [h]
  · have hmax : max (μ : EReal) (ρ : EReal) = ((max μ ρ : ℝ) : EReal) :=
      (EReal.coe_strictMono.monotone.map_max).symm
    obtain rfl : m' = ((max μ ρ : ℝ) : EReal) := by rw [hm', hmax]
    refine Or.inr ⟨max μ ρ, rfl, ?_, fun d => ?_⟩
    · simp only [← EReal.coe_sub, Ideal.exp_coe, ← EReal.coe_mul, Cert.Lib.sum_coe, ← EReal.coe_add]
      rw [rescale_one]
    · dsimp only
      rw [hav d]
      simp only [hx, ← EReal.coe_sub, Ideal.exp_coe, ← EReal.coe_mul, Cert.Lib.sum_coe, ← EReal.coe_add]
      rw [rescale ℓ (fun τ => s τ d)]

/-- THE QUOTIENT. After at least one position the weighted sum over the plain sum is the pooled value: the factor
    exp (-μ) common to both cancels, whatever the shift μ. -/
theorem Run.out {ℓ : ℕ → ℝ} {s : ℕ → D → ℝ} {N : ℕ} {mv lv : EReal} {av : D → EReal}
    (h : Run ℓ s N mv lv av) (hN : 0 < N) (d : D) :
    Ideal.div (av d) lv
      = (((∑ τ ∈ Finset.range N, Real.exp (ℓ τ) * s τ d) / (∑ τ ∈ Finset.range N, Real.exp (ℓ τ)) : ℝ) : EReal) := by
  rcases h with ⟨rfl, -⟩ | ⟨μ, rfl, rfl, hav⟩
  · exact absurd rfl hN.ne'
  · rw [hav d]
    have hne : (Finset.range N).Nonempty := Finset.nonempty_range_iff.2 hN.ne'
    have hpos : 0 < ∑ τ ∈ Finset.range N, Real.exp (ℓ τ - μ) := Finset.sum_pos (fun _ _ => Real.exp_pos _) hne
    have hS : 0 < ∑ τ ∈ Finset.range N, Real.exp (ℓ τ) := Finset.sum_pos (fun _ _ => Real.exp_pos _) hne
    rw [Ideal.div_coe hpos.ne', ← EReal.coe_mul]
    congr 1
    have e1 : ∀ τ, Real.exp (ℓ τ - μ) = Real.exp (ℓ τ) * Real.exp (-μ) := fun τ => by
      rw [sub_eq_add_neg, Real.exp_add]
    have e2 : ∑ τ ∈ Finset.range N, Real.exp (ℓ τ - μ) = (∑ τ ∈ Finset.range N, Real.exp (ℓ τ)) * Real.exp (-μ) := by
      rw [Finset.sum_mul]; exact Finset.sum_congr rfl fun τ _ => e1 τ
    have e3 : ∑ τ ∈ Finset.range N, Real.exp (ℓ τ - μ) * s τ d
        = (∑ τ ∈ Finset.range N, Real.exp (ℓ τ) * s τ d) * Real.exp (-μ) := by
      rw [Finset.sum_mul]; exact Finset.sum_congr rfl fun τ _ => by rw [e1 τ]; ring
    rw [e2, e3]
    have hE : Real.exp (-μ) ≠ 0 := (Real.exp_pos _).ne'
    field_simp

end Cert.Pool

end
-- ==== Proof.TileRun.lean ====
/-
  One grid point's common step advances a row's running softmax by one tile.

  Row r of the tile has 256 positions. If the carried shift, sum and weighted sums of row r are the running state of
  that row over its first N positions (PoolAlgebra's `Run`), the tile's scores on row r are the real numbers ℓ (N + j)
  and the tile's values are s (N + j) d, then what the step stores for row r is the running state over N + 256
  positions: the stored shift is the old one against the tile's maximum, and the two stored sums are the old ones times
  exp (old shift - new shift) plus the tile's terms. The quotient the last point stores is then the pooled value.
-/
import proofs.«108072_j75788992906209_2_alg».proof.Proof.TileValue
import proofs.«108072_j75788992906209_2_alg».proof.Proof.PoolAlgebra

noncomputable section

open scoped BigOperators

namespace Cert.Pool.Tile

open Cert.KernelIdeal Cert.KernelIdeal.Gen Idealize.ShloMosaic Idealize.ShloMosaic.ValueIdx Cert.Pool

/-- A change of float format is the identity on the extended reals. -/
theorem pay9_apply (v3 : Vec Ideal S32x256x256 .f32) (i : S32x256x256.Idx) : k0_pay9 v3 i = v3 i := rfl

/-- THE STEP on row r. -/
theorem run_tile (ℓ : ℕ → ℝ) (s : ℕ → Fin 256 → ℝ) (N : ℕ)
    (x0 : Vec Ideal S32x256x256 .f32) (x2 : Vec Ideal S384x64 .f32) (x3 : Vec Ideal S64x1 .f32)
    (e2 : Vec Ideal S32x64 .f32) (m0 l0 : Vec Ideal S32x1 .f32) (a0 : Vec Ideal S32x256 .f32) (r : Fin 32)
    (hsc : ∀ j : Fin 256, k0_pay10 x0 x2 x3 e2 (ix2 r j) = ((ℓ (N + j) : ℝ) : EReal))
    (hx : ∀ (j : Fin 256) (d : Fin 256), x0 (ix3 r j d) = ((s (N + j) d : ℝ) : EReal))
    (h : Run ℓ s N (m0 (ix2 r (0 : Fin 1))) (l0 (ix2 r (0 : Fin 1))) (fun d => a0 (ix2 r d))) :
    Run ℓ s (N + 256) (k0_pay3 (k0_pay11 x0 x2 x3 e2 m0) (ix2 r (0 : Fin 1)))
      (k0_pay1 (k0_pay14 x0 x2 x3 e2 m0 l0) (ix2 r (0 : Fin 1)))
      (fun d => k0_pay2 (k0_pay9 x0) (k0_pay12 x0 x2 x3 e2 m0) (k0_pay13 x0 x2 x3 e2 m0) a0 (ix2 r d)) := by
  rw [pay3_eq, pay1_eq]
  have hm := shift_apply x0 x2 x3 e2 m0 r (0 : Fin 1)
  rw [ofBits_neg_inf] at hm
  have hstep := Run.step (K := 256) (by norm_num) h (fun j : Fin 256 => k0_pay10 x0 x2 x3 e2 (ix2 r j))
    (fun (j : Fin 256) (d : Fin 256) => x0 (ix3 r j d)) hsc hx _ hm
  have e1 : k0_pay14 x0 x2 x3 e2 m0 l0 (ix2 r (0 : Fin 1))
      = Ideal.exp (m0 (ix2 r (0 : Fin 1)) - k0_pay11 x0 x2 x3 e2 m0 (ix2 r (0 : Fin 1))) * l0 (ix2 r (0 : Fin 1))
        + ∑ j : Fin 256, Ideal.exp (k0_pay10 x0 x2 x3 e2 (ix2 r j) - k0_pay11 x0 x2 x3 e2 m0 (ix2 r (0 : Fin 1))) := by
    rw [sum_apply, factor_apply]
    simp only [weights_apply]
  have e2' : (fun d : Fin 256 => k0_pay2 (k0_pay9 x0) (k0_pay12 x0 x2 x3 e2 m0) (k0_pay13 x0 x2 x3 e2 m0) a0 (ix2 r d))
      = fun d : Fin 256 =>
          Ideal.exp (m0 (ix2 r (0 : Fin 1)) - k0_pay11 x0 x2 x3 e2 m0 (ix2 r (0 : Fin 1))) * a0 (ix2 r d)
          + ∑ j : Fin 256, Ideal.exp (k0_pay10 x0 x2 x3 e2 (ix2 r j) - k0_pay11 x0 x2 x3 e2 m0 (ix2 r (0 : Fin 1)))
              * x0 (ix3 r j d) := by
    funext d
    rw [wsum_apply, factor_apply]
    simp only [weights_apply, pay9_apply]
  rw [e1, e2']
  exact hstep

/-- THE QUOTIENT on row r, once at least one position has been seen. -/
theorem run_out (ℓ : ℕ → ℝ) (s : ℕ → Fin 256 → ℝ) (N : ℕ) (hN : 0 < N)
    (l0 : Vec Ideal S32x1 .f32) (a0 : Vec Ideal S32x256 .f32) (mv : EReal) (r : Fin 32) (d : Fin 256)
    (h : Run ℓ s N mv (l0 (ix2 r (0 : Fin 1))) (fun d => a0 (ix2 r d))) :
    k0_pay4 a0 l0 (ix2 r d)
      = (((∑ τ ∈ Finset.range N, Real.exp (ℓ τ) * s τ d) / (∑ τ ∈ Finset.range N, Real.exp (ℓ τ)) : ℝ) : EReal) := by
  rw [quot_apply]
  exact h.out hN d

end Cert.Pool.Tile

end
-- ==== Proof.TileScores.lean ====
/-
  A tile's scores and the context's projection are real numbers when the inputs are.

  If the tile of the sequence, W1, W2 and the context's block hold real numbers, the context's projection at (r, u) is the
  real number ctxProj b u and the tile's score at (r, j) is the real number score b (p j), where b is the batch row
  behind row r of the tile and p j the position behind column j: the products and finite sums of real numbers are real,
  and tanh of a real number is its real tanh.
-/
import proofs.«108072_j75788992906209_2_alg».proof.Proof.TileValue
import proofs.«108072_j75788992906209_2_alg».proof.Proof.LibERealSum

noncomputable section

open scoped BigOperators

namespace Cert.Pool.Tile

open Cert.KernelIdeal Cert.KernelIdeal.Gen Idealize.ShloMosaic Idealize.ShloMosaic.ValueIdx Cert.Pool

variable (sR : (⟨3, ![64, 4096, 256]⟩ : Shape).Idx → ℝ) (cR : (⟨2, ![64, 128]⟩ : Shape).Idx → ℝ)
  (w1 : (⟨2, ![384, 64]⟩ : Shape).Idx → ℝ) (w2 : (⟨2, ![64, 1]⟩ : Shape).Idx → ℝ)

/-- The context's projection of a real context block and a real W1. -/
theorem ctx_real (b : Fin 64) (x1 : Vec Ideal S32x128 .f32) (x2 : Vec Ideal S384x64 .f32) (r : Fin 32)
    (h1 : ∀ c : Fin 128, x1 (ix2 r c) = ((cR (ix2 b c) : ℝ) : EReal))
    (h2 : ∀ i : S384x64.Idx, x2 i = ((w1 i : ℝ) : EReal)) (u : Fin 64) :
    k0_pay8 x1 x2 (ix2 r u) = ((ctxProj cR w1 b u : ℝ) : EReal) := by
  rw [ctx_apply]
  simp only [h1, h2, ← EReal.coe_mul, Cert.Lib.sum_coe]
  rfl

/-- The tile's scores of a real sequence tile, real W1 and W2, and the real context projection. -/
theorem scores_real (b : Fin 64) (p : Fin 256 → Fin 4096) (x0 : Vec Ideal S32x256x256 .f32)
    (x2 : Vec Ideal S384x64 .f32) (x3 : Vec Ideal S64x1 .f32) (e2 : Vec Ideal S32x64 .f32) (r : Fin 32)
    (h0 : ∀ (j : Fin 256) (d : Fin 256), x0 (ix3 r j d) = ((sR (ix3 b (p j) d) : ℝ) : EReal))
    (h2 : ∀ i : S384x64.Idx, x2 i = ((w1 i : ℝ) : EReal)) (h3 : ∀ i : S64x1.Idx, x3 i = ((w2 i : ℝ) : EReal))
    (he : ∀ u : Fin 64, e2 (ix2 r u) = ((ctxProj cR w1 b u : ℝ) : EReal)) (j : Fin 256) :
    k0_pay10 x0 x2 x3 e2 (ix2 r j) = ((score sR cR w1 w2 b (p j) : ℝ) : EReal) := by
  rw [scores_apply]
  simp only [h0, h2, h3, he, ← EReal.coe_mul, Cert.Lib.sum_coe, ← EReal.coe_add, Ideal.tanh_coe]
  rfl

end Cert.Pool.Tile

end
-- ==== Proof.PoolResult.lean ====
/-
  The result array: entry (b, d) of the [64, 256] output is the pooled value of batch row b and column d.
-/
import proofs.«108072_j75788992906209_2_alg».proof.Proof.PoolSpec

noncomputable section

namespace Cert.Pool

open Idealize.ShloMosaic Idealize.ShloMosaic.ValueIdx

variable (sR : (⟨3, ![64, 4096, 256]⟩ : Shape).Idx → ℝ) (cR : (⟨2, ![64, 128]⟩ : Shape).Idx → ℝ)
  (w1 : (⟨2, ![384, 64]⟩ : Shape).Idx → ℝ) (w2 : (⟨2, ![64, 1]⟩ : Shape).Idx → ℝ)

/-- The result array, on the extended reals. -/
def G : (⟨2, ![64, 256]⟩ : Shape).Idx → EReal := fun i =>
  ((pooled sR cR w1 w2 ⟨(i 0).val, (i 0).isLt⟩ ⟨(i 1).val, (i 1).isLt⟩ : ℝ) : EReal)

/-- Read at an index whose coordinates are b and d. -/
theorem G_apply (i : (⟨2, ![64, 256]⟩ : Shape).Idx) (b : Fin 64) (d : Fin 256) (hb : (i 0).val = b.val)
    (hd : (i 1).val = d.val) : G sR cR w1 w2 i = ((pooled sR cR w1 w2 b d : ℝ) : EReal) := by
  unfold G
  congr 2
  · exact Fin.ext hb
  · exact Fin.ext hd

end Cert.Pool

end
-- ==== Proof.KernelValue.lean ====
/-
  The kernel's result array is the pooled attention, when the arguments hold real numbers.

  Point t of the 2 × 16 grid works on batch rows 32·(t/16) … +31 and positions 256·(t%16) … +255. By induction on the
  point: after point t the carried shift, sum and weighted sums of row r are the running softmax state (PoolAlgebra's
  `Run`) of batch row 32·(t/16) + r over its first 256·(t%16) + 256 positions, and the carried projection is that row's
  context projection. A chunk's first point starts from the empty state; every other point continues the state the point
  before left, in the same chunk. After a chunk's last point all 4096 positions have been seen, and the block written
  back — the weighted sums over the sum — is the pooled value of those 32 rows. The two write-backs cover the array.
-/
import proofs.«108072_j75788992906209_2_alg».proof.Proof.PointState
import proofs.«108072_j75788992906209_2_alg».proof.Proof.Blocks
import proofs.«108072_j75788992906209_2_alg».proof.Proof.TileRun
import proofs.«108072_j75788992906209_2_alg».proof.Proof.TileScores
import proofs.«108072_j75788992906209_2_alg».proof.Proof.PoolResult
import proofs.«108072_j75788992906209_2_alg».proof.Proof.Gen.KernelIdeal.Value

noncomputable section

namespace Cert.Pool.Kernel

open Cert.KernelIdeal Cert.KernelIdeal.Gen Idealize.ShloMosaic Idealize.ShloMosaic.TcCoe Idealize.SL.Sem
  Idealize.ShloMosaic.ValueIdx Cert.Pool
open Idealize.ShloMosaic.Pipeline (Dat)

variable (m : (ℓ : Loc nD τ sig) → Buf (Elt Ideal) ℓ) (ρ : Dev nD → PrngReg)
variable (sR : (⟨3, ![64, 4096, 256]⟩ : Shape).Idx → ℝ) (cR : (⟨2, ![64, 128]⟩ : Shape).Idx → ℝ)
  (w1 : (⟨2, ![384, 64]⟩ : Shape).Idx → ℝ) (w2 : (⟨2, ![64, 1]⟩ : Shape).Idx → ℝ)

/-- On core c the four argument arrays hold these real numbers. -/
structure Reals (c : Dev nD) : Prop where
  hseq : ∀ i : S64x4096x256.Idx, (m ((c : Thread nD τ).loc main_arg0) i : EReal) = ((sR i : ℝ) : EReal)
  hctx : ∀ i : S64x128.Idx, (m ((c : Thread nD τ).loc main_arg1) i : EReal) = ((cR i : ℝ) : EReal)
  hw1 : ∀ i : S384x64.Idx, (m ((c : Thread nD τ).loc main_arg2) i : EReal) = ((w1 i : ℝ) : EReal)
  hw2 : ∀ i : S64x1.Idx, (m ((c : Thread nD τ).loc main_arg3) i : EReal) = ((w2 i : ℝ) : EReal)

/-- The batch row behind row r of point n's chunk. -/
def brow (n : ℕ) (hn : n < cfg0.N) (r : Fin 32) : Fin 64 :=
  ⟨32 * (n / 16) + r.val, by have hN : cfg0.N = 32 := N_0; have := r.isLt; omega⟩

/-- The position behind column j of point n's tile. -/
def tpos (n : ℕ) (j : Fin 256) : Fin 4096 :=
  ⟨256 * (n % 16) + j.val, by have := j.isLt; have := Nat.mod_lt n (show 0 < 16 by norm_num); omega⟩

/-- THE COMMON STEP at point t, on row r: from the running state over the first 256·(t%16) positions (relative to the
    carried arrays the step starts from) to the running state over 256 more. -/
theorem point_step (c : Dev nD) (H : Reals m sR cR w1 w2 c) (t : Fin cfg0.N) (r : Fin 32)
    (e2 : Vec Ideal S32x64 .f32) (m0 l0 : Vec Ideal S32x1 .f32) (a0 : Vec Ideal S32x256 .f32)
    (he : ∀ u : Fin 64, e2 (ix2 r u) = ((ctxProj cR w1 (brow t.val t.isLt r) u : ℝ) : EReal))
    (h : Run (scoreN sR cR w1 w2 (brow t.val t.isLt r)) (valN sR (brow t.val t.isLt r)) (256 * (t.val % 16))
          (m0 (ix2 r (0 : Fin 1))) (l0 (ix2 r (0 : Fin 1))) (fun d : Fin 256 => a0 (ix2 r d))) :
    Run (scoreN sR cR w1 w2 (brow t.val t.isLt r)) (valN sR (brow t.val t.isLt r)) (256 * (t.val % 16) + 256)
      (k0_pay3 (k0_pay11 (iblk m c 0 t) (iblk m c 2 t) (iblk m c 3 t) e2 m0) (ix2 r (0 : Fin 1)))
      (k0_pay1 (k0_pay14 (iblk m c 0 t) (iblk m c 2 t) (iblk m c 3 t) e2 m0 l0) (ix2 r (0 : Fin 1)))
      (fun d : Fin 256 => k0_pay2 (k0_pay9 (iblk m c 0 t)) (k0_pay12 (iblk m c 0 t) (iblk m c 2 t) (iblk m c 3 t) e2 m0)
          (k0_pay13 (iblk m c 0 t) (iblk m c 2 t) (iblk m c 3 t) e2 m0) a0 (ix2 r d)) := by
  have hx0 : ∀ (j : Fin 256) (d : Fin 256), (iblk m c 0 t : Vec Ideal S32x256x256 .f32) (ix3 r j d)
      = ((sR (ix3 (brow t.val t.isLt r) (tpos t.val j) d) : ℝ) : EReal) := fun j d =>
    (Blocks.seq_block m c t r j d (brow t.val t.isLt r) (tpos t.val j) rfl rfl).trans (H.hseq _)
  have hx2 : ∀ i : S384x64.Idx, (iblk m c 2 t : Vec Ideal S384x64 .f32) i = ((w1 i : ℝ) : EReal) := fun i =>
    (Blocks.w1_block m c t i).trans (H.hw1 i)
  have hx3 : ∀ i : S64x1.Idx, (iblk m c 3 t : Vec Ideal S64x1 .f32) i = ((w2 i : ℝ) : EReal) := fun i =>
    (Blocks.w2_block m c t i).trans (H.hw2 i)
  refine Tile.run_tile (scoreN sR cR w1 w2 (brow t.val t.isLt r)) (valN sR (brow t.val t.isLt r)) (256 * (t.val % 16))
    (iblk m c 0 t) (iblk m c 2 t) (iblk m c 3 t) e2 m0 l0 a0 r (fun j => ?_) (fun j d => ?_) h
  · rw [Tile.scores_real sR cR w1 w2 (brow t.val t.isLt r) (tpos t.val) (iblk m c 0 t) (iblk m c 2 t) (iblk m c 3 t) e2 r
      hx0 hx2 hx3 he j]
    exact congrArg (fun x : ℝ => (x : EReal)) (scoreN_of_lt sR cR w1 w2 (brow t.val t.isLt r) (tpos t.val j)).symm
  · rw [hx0 j d]
    exact congrArg (fun x : ℝ => (x : EReal)) (valN_of_lt sR (brow t.val t.isLt r) (tpos t.val j) d).symm

/-- THE INVARIANT after point n. -/
def Inv (c : Dev nD) (n : ℕ) (hn : n < cfg0.N) : Prop :=
  ∀ r : Fin 32,
    Run (scoreN sR cR w1 w2 (brow n hn r)) (valN sR (brow n hn r)) (256 * (n % 16) + 256)
      ((outsAt0 m c n hn).2.1 (ix2 r (0 : Fin 1))) ((outsAt0 m c n hn).2.2.1 (ix2 r (0 : Fin 1)))
      (fun d : Fin 256 => (outsAt0 m c n hn).2.2.2.1 (ix2 r d))
    ∧ ∀ u : Fin 64, (outsAt0 m c n hn).2.2.2.2 (ix2 r u) = ((ctxProj cR w1 (brow n hn r) u : ℝ) : EReal)

/-- A chunk's first point establishes it from the empty state. -/
theorem inv_first (c : Dev nD) (H : Reals m sR cR w1 w2 c) (t : Fin cfg0.N) (h0 : t.val % 16 = 0) :
    Inv m sR cR w1 w2 c t.val t.isLt := by
  intro r
  have he : ∀ u : Fin 64, (k0_pay8 (iblk m c 1 t) (iblk m c 2 t) : Vec Ideal S32x64 .f32) (ix2 r u)
      = ((ctxProj cR w1 (brow t.val t.isLt r) u : ℝ) : EReal) := fun u =>
    Tile.ctx_real cR w1 (brow t.val t.isLt r) (iblk m c 1 t) (iblk m c 2 t) r
      (fun k => (Blocks.ctx_block m c t r k (brow t.val t.isLt r) rfl).trans (H.hctx _))
      (fun i => (Blocks.w1_block m c t i).trans (H.hw1 i)) u
  have hempty : Run (scoreN sR cR w1 w2 (brow t.val t.isLt r)) (valN sR (brow t.val t.isLt r)) (256 * (t.val % 16))
      ((k0_pay5 (F := Ideal)) (ix2 r (0 : Fin 1))) ((k0_pay6 (F := Ideal)) (ix2 r (0 : Fin 1)))
      (fun d : Fin 256 => (k0_pay7 (F := Ideal)) (ix2 r d)) := by
    rw [h0, Tile.reset_shift_apply, Tile.reset_sum_apply]
    simp only [Tile.reset_wsum_apply]
    exact Run.empty _ _
  refine ⟨?_, ?_⟩
  · rw [PointState.first_shift m c t h0, PointState.first_sum m c t h0, PointState.first_wsum m c t h0]
    exact point_step m sR cR w1 w2 c H t r _ _ _ _ he hempty
  · intro u
    rw [PointState.first_proj m c t h0]
    exact he u

/-- Any other point continues it from the point before, in the same chunk. -/
theorem inv_next (c : Dev nD) (H : Reals m sR cR w1 w2 c) (t : Fin cfg0.N) (h0 : ¬t.val % 16 = 0)
    (ih : Inv m sR cR w1 w2 c (t.val - 1) (Nat.lt_of_le_of_lt (Nat.sub_le _ _) t.isLt)) : Inv m sR cR w1 w2 c t.val t.isLt := by
  intro r
  obtain ⟨hrun, hctx⟩ := ih r
  have hb : brow (t.val - 1) (Nat.lt_of_le_of_lt (Nat.sub_le _ _) t.isLt) r = brow t.val t.isLt r :=
    Fin.ext (by show 32 * ((t.val - 1) / 16) + r.val = 32 * (t.val / 16) + r.val; omega)
  have hn : 256 * ((t.val - 1) % 16) + 256 = 256 * (t.val % 16) := by omega
  rw [hb, hn] at hrun
  rw [hb] at hctx
  refine ⟨?_, ?_⟩
  · rw [PointState.next_shift m c t h0, PointState.next_sum m c t h0, PointState.next_wsum m c t h0]
    exact point_step m sR cR w1 w2 c H t r _ _ _ _ hctx hrun
  · intro u
    rw [PointState.next_proj m c t h0]
    exact hctx u

/-- So it holds after every point. -/
theorem inv (c : Dev nD) (H : Reals m sR cR w1 w2 c) : ∀ (n : ℕ) (hn : n < cfg0.N), Inv m sR cR w1 w2 c n hn := by
  intro n
  induction n with
  | zero => intro hn; exact inv_first m sR cR w1 w2 c H ⟨0, hn⟩ rfl
  | succ k ih =>
    intro hn
    by_cases h0 : (k + 1) % 16 = 0
    · exact inv_first m sR cR w1 w2 c H ⟨k + 1, hn⟩ h0
    · exact inv_next m sR cR w1 w2 c H ⟨k + 1, hn⟩ h0 (ih (Nat.lt_of_succ_lt hn))

/-- An index of the result array is in point t's output block iff each coordinate is in the block's range. -/
theorem mem_blk (t : Fin cfg0.N) (i : S64x256.Idx) :
    i ∈ ((cfg0.win 4).blk t).view.set ↔ ∀ a : Fin 2, win0_4.index t a * S32x256.size a ≤ (i a).val
      ∧ (i a).val < win0_4.index t a * S32x256.size a + S32x256.size a := by
  show i ∈ ((View.whole main_v0).slice (win0_4.rect t)).set ↔ _
  rw [View.set_slice_whole, Rect.mem_set_unit]
  exact Iff.rfl

/-- WHAT A CHUNK'S LAST POINT WRITES BACK is its block of the result array. -/
theorem flushed_eq (c : Dev nD) (H : Reals m sR cR w1 w2 c) (t : Fin cfg0.N) (hf : (cfg0.win 4).flush t = true) :
    (dats m 0 c).flushed 4 t = ((cfg0.win 4).blk t).view.read (Elt Ideal) (G sR cR w1 w2) := by
  have h15 : t.val % 16 = 15 := (flush0_4 t).mp hf
  have h0 : ¬t.val % 16 = 0 := by omega
  obtain ⟨-, -, -, -, -, -, -, -, -, e0, e1⟩ := Blocks.idx_facts t
  rw [Value.flushed4, PointState.last_out m c t h0 h15]
  refine funext fun (y : S32x256.Idx) => ?_
  obtain ⟨r, d, rfl⟩ : ∃ (r : Fin 32) (d : Fin 256), y = ix2 r d := ⟨y 0, y 1, eq_ix2 y⟩
  have hrun := (inv m sR cR w1 w2 c H t.val t.isLt r).1
  have hn : 256 * (t.val % 16) + 256 = 4096 := by omega
  rw [hn] at hrun
  show k0_pay4 (outsAt0 m c t.val t.isLt).2.2.2.1 (outsAt0 m c t.val t.isLt).2.2.1 (ix2 r d)
    = G sR cR w1 w2 (((cfg0.win 4).blk t).view.emb (ix2 r d))
  refine (Tile.run_out _ _ 4096 (by norm_num) _ _ _ r d hrun).trans ?_
  rw [G_apply sR cR w1 w2 _ (brow t.val t.isLt r) d
    (by show win0_4.index t (0 : Fin 2) * 32 + 1 * r.val = 32 * (t.val / 16) + r.val; omega)
    (by show win0_4.index t (1 : Fin 2) * 256 + 1 * d.val = d.val; omega)]
  rfl

/-- So the result array after the run is the pooled attention. -/
theorem final (c : Dev nD) (H : Reals m sR cR w1 w2 c) : (dats m 0 c).arrAt 4 cfg0.N = G sR cR w1 w2 :=
  (dats m 0 c).arrAt_eq_of_cover 4 (G sR cR w1 w2) (fun t hf => flushed_eq m sR cR w1 w2 c H t hf) fun i => by
    have hi0 : (i 0).val < 64 := (i 0).isLt
    have hi1 : (i 1).val < 256 := (i 1).isLt
    have hN : cfg0.N = 32 := N_0
    obtain ⟨t, ht⟩ : ∃ t : Fin cfg0.N, t.val = 16 * ((i 0).val / 32) + 15 := ⟨⟨_, by omega⟩, rfl⟩
    obtain ⟨-, -, -, -, -, -, -, -, -, e0, e1⟩ := Blocks.idx_facts t
    refine ⟨t, (flush0_4 t).mpr (by omega), ?_⟩
    rw [mem_blk]
    intro a
    match a with
    | ⟨0, _⟩ =>
      show win0_4.index t (0 : Fin 2) * 32 ≤ (i 0).val ∧ (i 0).val < win0_4.index t (0 : Fin 2) * 32 + 32
      omega
    | ⟨1, _⟩ =>
      show win0_4.index t (1 : Fin 2) * 256 ≤ (i 1).val ∧ (i 1).val < win0_4.index t (1 : Fin 2) * 256 + 256
      omega

end Cert.Pool.Kernel

/-! ## The run, read -/

namespace Cert.Pool.Kernel

open Cert.KernelIdeal Cert.KernelIdeal.Gen Idealize.ShloMosaic Idealize.ShloMosaic.TcCoe Idealize.SL.Sem Cert.Pool

/-- The kernel's run with its result array named: the pooled attention of the real arrays the arguments hold, the
    arguments unchanged. -/
theorem run (m : (ℓ : Loc nD τ sig) → Buf (Elt Ideal) ℓ) (ρ : Dev nD → PrngReg)
    (sR : Dev nD → (⟨3, ![64, 4096, 256]⟩ : Shape).Idx → ℝ) (cR : Dev nD → (⟨2, ![64, 128]⟩ : Shape).Idx → ℝ)
    (w1 : Dev nD → (⟨2, ![384, 64]⟩ : Shape).Idx → ℝ) (w2 : Dev nD → (⟨2, ![64, 1]⟩ : Shape).Idx → ℝ)
    (H : ∀ c, Reals m (sR c) (cR c) (w1 c) (w2 c) c) :
    θ_run defs (onTc (τ := τ) (main (F := Ideal))) ⟨m, fun _ => 0, ρ⟩ fun r => ∀ c : Dev nD,
      r.2.mem ((c : Thread nD τ).loc main_v0) = G (sR c) (cR c) (w1 c) (w2 c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m (sR c) (cR c) (w1 c) (w2 c) c (H c)), (h c).2⟩)
    (Value.run_blocks m ρ)

end Cert.Pool.Kernel

end
-- ==== Proof.RefAlgebra.lean ====
/-
  The softmax pooling as a plain program writes it, on the extended reals.

  A plain program shifts the scores by their maximum M, exponentiates, divides each weight by the sum of the weights
  and pools:   0 + ∑ t, s t · (exp (ℓ t - M) / (0 + ∑ t', exp (ℓ t' - M))).
  For real scores, real values and any real M this is (∑ t, exp (ℓ t) · s t) / (∑ t, exp (ℓ t)): the factor exp (-M)
  cancels, and dividing each term by the positive real sum is dividing the sum. The maximum itself, folded from -∞ over
  real numbers, is a real number; nothing else about it is used.
-/
import proofs.«108072_j75788992906209_2_alg».proof.Proof.PoolAlgebra

noncomputable section

open scoped BigOperators
open Idealize.ShloMosaic

namespace Cert.Pool

/-- A maximum folded from -∞ over a nonempty finite family of extended reals that are real numbers is a real number. -/
theorem fold_max_real' {K : ℕ} (hK : 0 < K) (g : Fin K → EReal) (hg : ∀ k, ∃ r : ℝ, g k = (r : EReal)) :
    ∃ ρ : ℝ, (Finset.univ : Finset (Fin K)).fold max (⊥ : EReal) g = (ρ : EReal) := by
  choose f hf using hg
  obtain rfl : g = fun k => ((f k : ℝ) : EReal) := funext hf
  exact fold_max_real hK f

/-- The plain program's pooling is the pooled value. -/
theorem ref_pool {n : ℕ} (hn : 0 < n) (ℓ s : Fin n → ℝ) (M : ℝ) :
    (0 : EReal) + ∑ t : Fin n, ((s t : ℝ) : EReal)
        * Ideal.div (Ideal.exp (((ℓ t : ℝ) : EReal) - (M : EReal)))
            ((0 : EReal) + ∑ t' : Fin n, Ideal.exp (((ℓ t' : ℝ) : EReal) - (M : EReal)))
      = (((∑ t : Fin n, Real.exp (ℓ t) * s t) / (∑ t : Fin n, Real.exp (ℓ t)) : ℝ) : EReal) := by
  have hne : (Finset.univ : Finset (Fin n)).Nonempty := ⟨⟨0, hn⟩, Finset.mem_univ _⟩
  have hS : 0 < ∑ t : Fin n, Real.exp (ℓ t - M) := Finset.sum_pos (fun _ _ => Real.exp_pos _) hne
  have hE : 0 < ∑ t : Fin n, Real.exp (ℓ t) := Finset.sum_pos (fun _ _ => Real.exp_pos _) hne
  simp only [← EReal.coe_sub, Ideal.exp_coe, Cert.Lib.sum_coe, zero_add, Ideal.div_coe hS.ne', ← EReal.coe_mul]
  congr 1
  have e1 : ∀ t, Real.exp (ℓ t - M) = Real.exp (ℓ t) * Real.exp (-M) := fun t => by
    rw [sub_eq_add_neg, Real.exp_add]
  have e2 : ∑ t : Fin n, Real.exp (ℓ t - M) = (∑ t : Fin n, Real.exp (ℓ t)) * Real.exp (-M) := by
    rw [Finset.sum_mul]; exact Finset.sum_congr rfl fun t _ => e1 t
  have hX : Real.exp (-M) ≠ 0 := (Real.exp_pos _).ne'
  rw [e2, Finset.sum_div]
  refine Finset.sum_congr rfl fun t _ => ?_
  rw [e1 t]
  field_simp

end Cert.Pool

end
-- ==== Proof.RefValue.lean ====
/-
  The reference's result array is the pooled attention, when the arguments hold real numbers.

  Read one operation at a time: the two projections are sums over the contracted axis of real products; the scores are
  the sums over the 64 units of tanh of the projections' sum times W2; the maximum over the positions, folded from -∞
  over real scores, is a real number M; the weights exp (score - M) are real, their sum positive; and the result
  0 + ∑ t, sequence (b,t,d) · (weight t / (0 + ∑ weights)) is the pooled value whatever M is.
-/
import proofs.«108072_j75788992906209_2_alg».proof.Proof.Gen.ReferenceIdeal.Read
import proofs.«108072_j75788992906209_2_alg».proof.Proof.RefAlgebra
import proofs.«108072_j75788992906209_2_alg».proof.Proof.PoolResult

noncomputable section

open scoped BigOperators

namespace Cert.Pool.Ref

open Cert.ReferenceIdeal Cert.ReferenceIdeal.Gen Cert.ReferenceIdeal.Read Idealize.ShloMosaic Idealize.ShloMosaic.ValueIdx
  Cert.Pool

variable (sR : (⟨3, ![64, 4096, 256]⟩ : Shape).Idx → ℝ) (cR : (⟨2, ![64, 128]⟩ : Shape).Idx → ℝ)
  (w1 : (⟨2, ![384, 64]⟩ : Shape).Idx → ℝ) (w2 : (⟨2, ![64, 1]⟩ : Shape).Idx → ℝ)
variable (x0 : (⟨S64x4096x256, .f32⟩ : BufTy).Contents (Elt Ideal)) (x1 : (⟨S64x128, .f32⟩ : BufTy).Contents (Elt Ideal))
  (x2 : (⟨S384x64, .f32⟩ : BufTy).Contents (Elt Ideal)) (x3 : (⟨S64x1, .f32⟩ : BufTy).Contents (Elt Ideal))

/-- The float word 0xFF800000 is -∞. -/
theorem ofBits_neg_inf : Ideal.ofBits .f32 0xFF800000#32 = ⊥ := by simp [Ideal.ofBits, Ideal.ieee]

/-- The pooled value with its sums over the 4096 positions themselves. -/
theorem pooled_eq (b : Fin 64) (d : Fin 256) :
    pooled sR cR w1 w2 b d
      = (∑ t : Fin 4096, Real.exp (score sR cR w1 w2 b t) * sR (ix3 b t d))
          / (∑ t : Fin 4096, Real.exp (score sR cR w1 w2 b t)) := by
  unfold pooled
  rw [Finset.sum_range, Finset.sum_range]
  simp only [scoreN_of_lt, valN_of_lt]

/-- The context's projection. -/
theorem ctx_eq (h1 : ∀ i, x1 i = ((cR i : ℝ) : EReal)) (h2 : ∀ i, x2 i = ((w1 i : ℝ) : EReal)) (b u : Fin 64) :
    val_main_v3 (F := Ideal) x1 x2 (ix2 b u) = ((ctxProj cR w1 b u : ℝ) : EReal) := by
  rw [val_main_v3_apply]
  have e1 : ∀ k : Fin 128, lidx_main_v3 (ix2 b u) k = ix2 b k := fun k => funext fun a => Fin.ext (by match a with | ⟨0, _⟩ => rfl | ⟨1, _⟩ => rfl)
  have e2 : ∀ k : Fin 128, idx_main_v1 (ridx_main_v3 (ix2 b u) k) = ix2 (w1hi k) u := fun k =>
    funext fun a => Fin.ext (by match a with | ⟨0, _⟩ => rfl | ⟨1, _⟩ => rfl)
  simp only [val_main_v1_apply, e1, e2, h1, h2, ← EReal.coe_mul, Cert.Lib.sum_coe]
  rfl

/-- The sequence's projection. -/
theorem seq_eq (h0 : ∀ i, x0 i = ((sR i : ℝ) : EReal)) (h2 : ∀ i, x2 i = ((w1 i : ℝ) : EReal)) (b : Fin 64)
    (t : Fin 4096) (u : Fin 64) :
    val_main_v2 (F := Ideal) x0 x2 (ix3 b t u) = ((seqProj sR w1 b t u : ℝ) : EReal) := by
  rw [val_main_v2_apply]
  have e1 : ∀ k : Fin 256, lidx_main_v2 (ix3 b t u) k = ix3 b t k := fun k => funext fun a => Fin.ext (by match a with | ⟨0, _⟩ => rfl | ⟨1, _⟩ => rfl | ⟨2, _⟩ => rfl)
  have e2 : ∀ k : Fin 256, idx_main_v0 (ridx_main_v2 (ix3 b t u) k) = ix2 (w1lo k) u := fun k =>
    funext fun a => Fin.ext (by match a with | ⟨0, _⟩ => rfl | ⟨1, _⟩ => rfl)
  simp only [val_main_v0_apply, e1, e2, h0, h2, ← EReal.coe_mul, Cert.Lib.sum_coe]
  rfl

/-- The scores. -/
theorem score_eq (h0 : ∀ i, x0 i = ((sR i : ℝ) : EReal)) (h1 : ∀ i, x1 i = ((cR i : ℝ) : EReal))
    (h2 : ∀ i, x2 i = ((w1 i : ℝ) : EReal)) (h3 : ∀ i, x3 i = ((w2 i : ℝ) : EReal)) (b : Fin 64) (t : Fin 4096)
    (z : Fin 1) :
    val_main_v8 (F := Ideal) x0 x1 x2 x3 (ix3 b t z) = ((score sR cR w1 w2 b t : ℝ) : EReal) := by
  obtain rfl : z = 0 := Subsingleton.elim _ _
  rw [val_main_v8_apply]
  have e1 : ∀ k : Fin 64, lidx_main_v8 (ix3 b t (0 : Fin 1)) k = ix3 b t k := fun k =>
    funext fun a => Fin.ext (by match a with | ⟨0, _⟩ => rfl | ⟨1, _⟩ => rfl | ⟨2, _⟩ => rfl)
  have e2 : ∀ k : Fin 64, ridx_main_v8 (ix3 b t (0 : Fin 1)) k = ix2 k (0 : Fin 1) := fun k =>
    funext fun a => Fin.ext (by match a with | ⟨0, _⟩ => rfl | ⟨1, _⟩ => rfl)
  have e3 : ∀ k : Fin 64, idx_main_v4 (idx_main_v5 (ix3 b t k)) = ix2 b k := fun k =>
    funext fun a => Fin.ext (by match a with | ⟨0, _⟩ => rfl | ⟨1, _⟩ => rfl)
  simp only [e1, e2, val_main_v7_apply, val_main_v6_apply, val_main_v5_apply, val_main_v4_apply, e3,
    ctx_eq cR w1 x1 x2 h1 h2, seq_eq sR w1 x0 x2 h0 h2, h3, Ideal.hostUnary_tanh_def, Ideal.addf_def, ← EReal.coe_add,
    Ideal.tanh_coe, ← EReal.coe_mul, Cert.Lib.sum_coe]
  rfl

/-- The maximum over the positions is a real number. -/
theorem max_real (h0 : ∀ i, x0 i = ((sR i : ℝ) : EReal)) (h1 : ∀ i, x1 i = ((cR i : ℝ) : EReal))
    (h2 : ∀ i, x2 i = ((w1 i : ℝ) : EReal)) (h3 : ∀ i, x3 i = ((w2 i : ℝ) : EReal)) (b : Fin 64) (z : Fin 1) :
    ∃ M : ℝ, val_main_v11 (F := Ideal) x0 x1 x2 x3 (ix2 b z) = (M : EReal) := by
  have hred : S64x4096x1.Reduces [1] S64x1 := by decide
  obtain ⟨ρ, hρ⟩ := fold_max_real' (K := 4096) (by norm_num)
    ((val_main_v8 (F := Ideal) x0 x1 x2 x3) ∘ hred.lift (ix2 b z)) (fun k => by
      refine ⟨score sR cR w1 w2 (hred.lift (ix2 b z) k 0) (hred.lift (ix2 b z) k 1), ?_⟩
      show val_main_v8 (F := Ideal) x0 x1 x2 x3 (hred.lift (ix2 b z) k) = _
      refine (congrArg (val_main_v8 (F := Ideal) x0 x1 x2 x3) (eq_ix3 (hred.lift (ix2 b z) k))).trans ?_
      exact score_eq sR cR w1 w2 x0 x1 x2 x3 h0 h1 h2 h3 _ _ _)
  refine ⟨ρ, ?_⟩
  rw [val_main_v11_apply]
  have hv10 : val_main_v10 (F := Ideal) (ix2 b z) = (⊥ : EReal) := ofBits_neg_inf
  have hv9 : val_main_v9 (F := Ideal) x0 x1 x2 x3 (ix2 b z) = (ρ : EReal) := by
    unfold val_main_v9
    rw [Host.reduce_eq_fold_single FloatOps.maximumf _ _ reducesTo_S64x4096x1_S64x1_d1 hred h_S_]
    refine Eq.trans ?_ hρ
    show Finset.fold max (Ideal.ofBits .f32 0xFF800000#32) _ _ = _
    rw [ofBits_neg_inf]
    rfl
  rw [hv10, hv9]
  exact max_eq_right bot_le

/-- THE REFERENCE'S RESULT ARRAY. -/
theorem ref_eq (h0 : ∀ i, x0 i = ((sR i : ℝ) : EReal)) (h1 : ∀ i, x1 i = ((cR i : ℝ) : EReal))
    (h2 : ∀ i, x2 i = ((w1 i : ℝ) : EReal)) (h3 : ∀ i, x3 i = ((w2 i : ℝ) : EReal)) :
    val_main_v22 (F := Ideal) x0 x1 x2 x3 = G sR cR w1 w2 := by
  funext i
  obtain ⟨b, d, rfl⟩ : ∃ (b : Fin 64) (d : Fin 256), i = ix2 b d := ⟨i 0, i 1, eq_ix2 i⟩
  obtain ⟨M, hM⟩ := max_real sR cR w1 w2 x0 x1 x2 x3 h0 h1 h2 h3 b (0 : Fin 1)
  rw [G_apply sR cR w1 w2 (ix2 b d) b d rfl rfl, pooled_eq, val_main_v22_apply]
  have e22 : ∀ k : Fin 4096, idx_main_v22 (ix2 b d) k = ix3 b k d := fun k => funext fun a => Fin.ext (by match a with | ⟨0, _⟩ => rfl | ⟨1, _⟩ => rfl | ⟨2, _⟩ => rfl)
  have e20 : ∀ k : Fin 4096, idx_main_v20 (ix3 b k d) = ix3 b k (0 : Fin 1) := fun k =>
    funext fun a => Fin.ext (by match a with | ⟨0, _⟩ => rfl | ⟨1, _⟩ => rfl | ⟨2, _⟩ => rfl)
  have e18 : ∀ k : Fin 4096, idx_main_v17 (idx_main_v18 (ix3 b k (0 : Fin 1))) = ix2 b (0 : Fin 1) := fun k =>
    funext fun a => Fin.ext (by match a with | ⟨0, _⟩ => rfl | ⟨1, _⟩ => rfl)
  have e13 : ∀ k : Fin 4096, idx_main_v12 (idx_main_v13 (ix3 b k (0 : Fin 1))) = ix2 b (0 : Fin 1) := fun k =>
    funext fun a => Fin.ext (by match a with | ⟨0, _⟩ => rfl | ⟨1, _⟩ => rfl)
  have e16 : ∀ k : Fin 4096, idx_main_v16 (ix2 b (0 : Fin 1)) k = ix3 b k (0 : Fin 1) := fun k =>
    funext fun a => Fin.ext (by match a with | ⟨0, _⟩ => rfl | ⟨1, _⟩ => rfl | ⟨2, _⟩ => rfl)
  simp only [e22, val_main_v21_apply, val_main_v20_apply, e20, val_main_v19_apply, val_main_v18_apply,
    val_main_v17_apply, e18, val_main_v16_apply, e16, val_main_v15_apply, val_main_v14_apply, val_main_v13_apply,
    val_main_v12_apply, e13, hM, score_eq sR cR w1 w2 x0 x1 x2 x3 h0 h1 h2 h3, h0, val_main_cst_1_apply,
    val_main_cst_2_apply, Ideal.ofBits_def, Ideal.ofBits_zero_f32, Ideal.hostUnary_exp_def, Ideal.hostDivf_def,
    Ideal.mulf_def, Ideal.subf_def]
  exact ref_pool (by norm_num) (fun t => score sR cR w1 w2 b t) (fun t => sR (ix3 b t d)) M

end Cert.Pool.Ref

end
-- ==== Proof.LibFiniteEntries.lean ====
/-
  Finite entries: from an and-reduction of |v| < +∞ to real numbers.

  A precondition "every entry of v is finite" is printed as the and-reduction, over all axes, of the entrywise
  comparison |v| < +∞, where |v| is max(v, −v) and +∞ is the f32 word 0x7F800000, and is asserted to be 1. Then the
  comparison is 1 at every entry, and an extended real whose absolute value is below +∞ is a real number. Stated for
  an array of any shape, so that one conjunct of a conjunction of such tests is read with one application.
-/
import Idealize.ShloMosaic.PureOps.Ideal
import Idealize.ShloMosaic.Lib.ReduceAll
import Idealize.ShloMosaic.Lib.ValueIdx

noncomputable section

namespace Cert.Lib

open Idealize.ShloMosaic Idealize.ShloMosaic.ValueIdx

/-- The scalar shape has one index. -/
instance scalarIdx_subsingleton : Subsingleton (⟨0, ![]⟩ : Shape).Idx := ⟨fun _ _ => funext fun d => d.elim0⟩

/-- An extended real whose absolute value max(v, −v) is below +∞ is a real number. -/
theorem exists_real_of_abs_lt_top (v : EReal) (h : max v (-v) < ⊤) : ∃ r : ℝ, v = (r : EReal) := by
  induction v using EReal.rec with
  | bot => simp at h
  | coe r => exact ⟨r, rfl⟩
  | top => simp at h

/-- On one value: the ordered comparison |v| < +∞ (the word 0x7F800000) coming out 1 says that v is a real number. -/
theorem real_of_abs_olt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  refine exists_real_of_abs_lt_top v ?_
  by_contra hn
  simp [hn] at h

/-- One "all entries finite" test: if the and-reduction over all axes of |v| < +∞ (the bound a scalar constant repeated
    over the shape, the reduction started from the constant 1) is 1, every entry of v is a real number. -/
theorem real_of_all_finite {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) :=
  real_of_abs_olt_inf (v i) (Host.reduce_andi_all _ _ hr hu ix0 h i)

end Cert.Lib

end
-- ==== Proof.Finite.lean ====
/-
  The precondition: every entry of the four argument arrays is a real number.

  `finite_inputs` is the conjunction of four tests "all entries of |a| are below +∞", one per argument, each an
  and-reduction over all axes. If the conjunction is 1 each test is 1, and each test being 1 says that every entry of its
  array is a real number.
-/
import proofs.«108072_j75788992906209_2_alg».proof.Pre_finite_inputs
import proofs.«108072_j75788992906209_2_alg».proof.Proof.LibFiniteEntries

noncomputable section

namespace Cert.Pool.Finite

open Idealize.ShloMosaic Idealize.ShloMosaic.ValueIdx Cert.Pre_finite_inputs

theorem reals_of_pre [Cert.Pre_finite_inputs.Facts]
    (a0 : FVec Ideal S64x4096x256 .f32) (a1 : FVec Ideal S64x128 .f32) (a2 : FVec Ideal S384x64 .f32)
    (a3 : FVec Ideal S64x1 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [fn, fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨Cert.Lib.real_of_all_finite a0 _ _ _ h0', Cert.Lib.real_of_all_finite a1 _ _ _ h1,
    Cert.Lib.real_of_all_finite a2 _ _ _ h2, Cert.Lib.real_of_all_finite a3 _ _ _ h3⟩

end Cert.Pool.Finite

end
-- ==== Proof.lean ====
/-
  Attention pooling with a context vector: a kernel that reads the sequence once, tile by tile, against the plain
  program.

  For every batch row b the result is the softmax over the 4096 positions t of the scores
      score b t = ∑ u, tanh ((∑ d, sequence (b,t,d) · W1 (d,u)) + (∑ c, context (b,c) · W1 (256+c,u))) · W2 (u,0),
  applied to the sequence's columns:  pooled b d = (∑ t, exp (score b t) · sequence (b,t,d)) / (∑ t, exp (score b t)).

  The plain program computes it as written: it subtracts the maximum M of the scores, exponentiates, divides each weight
  by the weights' sum and sums the weighted rows. The kernel visits the positions in 16 tiles of 256 and keeps, per
  batch row, a running shift, the running sum of exp (score - shift) and the running sums of exp (score - shift) ·
  sequence, multiplying both by exp (old shift - new shift) when the shift grows; after the last tile it divides.
  Over the extended reals the two agree because, for real inputs, every score is a real number, so every shift the
  kernel or the plain program uses is a real number, and the quotient does not depend on which real number it is: the
  factor exp (-shift) is common to numerator and denominator. The rescaling identity
  exp (μ - μ') · exp (ℓ - μ) = exp (ℓ - μ') and the passage of a division through a finite sum both need the terms to be
  real numbers; this is where the precondition (every input finite) is used. Before the first tile the shift is -∞ and
  the sums are 0, and exp (-∞ - μ') = 0 makes the first tile the same formula.

  The modules: PoolSpec / PoolResult (the result as one function of the arguments), PoolAlgebra / RefAlgebra (the two
  computations on the extended reals), TileValue / TileScores / TileRun (one grid point's arithmetic, entry by entry),
  Pieces / PointState / Blocks (what the carried arrays hold after each point; the blocks a point reads),
  KernelValue (the induction over the points, the write-backs, the kernel's run), RefValue (the plain program's run),
  Finite (the precondition). The three frames are the generated ones; the kernel's idealization rewrote nothing.
-/
import proofs.«108072_j75788992906209_2_alg».proof.Defs
import proofs.«108072_j75788992906209_2_alg».proof.Proof.Gen.Kernel
import proofs.«108072_j75788992906209_2_alg».proof.Proof.Gen.Kernel.Skeleton
import proofs.«108072_j75788992906209_2_alg».proof.Proof.Gen.Kernel.Launch
import proofs.«108072_j75788992906209_2_alg».proof.Proof.Gen.Kernel.Points
import proofs.«108072_j75788992906209_2_alg».proof.Proof.Gen.Kernel.Frame
import proofs.«108072_j75788992906209_2_alg».proof.Proof.Gen.KernelIdeal
import proofs.«108072_j75788992906209_2_alg».proof.Proof.Gen.KernelIdeal.Skeleton
import proofs.«108072_j75788992906209_2_alg».proof.Proof.Gen.KernelIdeal.Launch
import proofs.«108072_j75788992906209_2_alg».proof.Proof.Gen.KernelIdeal.Points
import proofs.«108072_j75788992906209_2_alg».proof.Proof.Gen.KernelIdeal.Frame
import proofs.«108072_j75788992906209_2_alg».proof.Proof.Gen.KernelIdeal.Value
import proofs.«108072_j75788992906209_2_alg».proof.Proof.Gen.ReferenceIdeal
import proofs.«108072_j75788992906209_2_alg».proof.Proof.Gen.ReferenceIdeal.Run
import proofs.«108072_j75788992906209_2_alg».proof.Proof.Gen.ReferenceIdeal.Read
import proofs.«108072_j75788992906209_2_alg».proof.Proof.Gen.Pre_finite_inputs
import proofs.«108072_j75788992906209_2_alg».proof.Proof.KernelValue
import proofs.«108072_j75788992906209_2_alg».proof.Proof.RefValue
import proofs.«108072_j75788992906209_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- And the plain program: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From arguments that agree and are finite, both programs end with the pooled attention of the real numbers the
    arguments hold. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hall := fun c => Cert.Pool.Finite.reals_of_pre _ _ _ _ (hpre c)
  choose sR hs using fun c => (hall c).1
  choose cR hc using fun c => (hall c).2.1
  choose w1 hw1 using fun c => (hall c).2.2.1
  choose w2 hw2 using fun c => (hall c).2.2.2
  have H : ∀ c, Cert.Pool.Kernel.Reals m (sR c) (cR c) (w1 c) (w2 c) c := fun c => ⟨hs c, hc c, hw1 c, hw2 c⟩
  refine ⟨fun c => Cert.Pool.G (sR c) (cR c) (w1 c) (w2 c), Cert.Pool.Kernel.run m ρ sR cR w1 w2 H, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, (hagree c).1, (hagree c).2.1, (hagree c).2.2.1,
    (hagree c).2.2.2]
  exact Cert.Pool.Ref.ref_eq (sR c) (cR c) (w1 c) (w2 c) _ _ _ _ (hs c) (hc c) (hw1 c) (hw2 c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
